-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S500x3 : Shape := ⟨2, ![500, 3]⟩
abbrev S500x3072 : Shape := ⟨2, ![500, 3072]⟩
abbrev S500x64 : Shape := ⟨2, ![500, 64]⟩
abbrev S500x10 : Shape := ⟨2, ![500, 10]⟩
abbrev S500 : Shape := ⟨1, ![500]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S500x3 : S_.BroadcastsInDim S500x3 (![] : Fin 0 → Fin S500x3.rank)
  reducesTo_S500x3_S_d0_1 : S500x3.ReducesTo [0, 1] S_
  bcast_S_S500x3072 : S_.BroadcastsInDim S500x3072 (![] : Fin 0 → Fin S500x3072.rank)
  reducesTo_S500x3072_S_d0_1 : S500x3072.ReducesTo [0, 1] S_
  bcast_S_S500x64 : S_.BroadcastsInDim S500x64 (![] : Fin 0 → Fin S500x64.rank)
  reducesTo_S500x64_S_d0_1 : S500x64.ReducesTo [0, 1] S_
  bcast_S_S500x10 : S_.BroadcastsInDim S500x10 (![] : Fin 0 → Fin S500x10.rank)
  reducesTo_S500x10_S_d0_1 : S500x10.ReducesTo [0, 1] S_
  bcast_S_S500 : S_.BroadcastsInDim S500 (![] : Fin 0 → Fin S500.rank)
  reducesTo_S500_S_d0 : S500.ReducesTo [0] S_

variable [Facts]

def fn_part1 {F : FTy → Type} [FloatOps F] (main_arg4 : FVec F S500x10 .f32) (main_arg5 : FVec F S500 .f32) (main_v13 : IVec S_ 1) (main_v16 : IVec S500x64 1) : IVec S_ 1 :=
  let main_c_5 : IVec S_ 1 := constantI S_ 1 1#1
  let main_v17 : IVec S_ 1 := (fun x v => Host.reduce IntOp.andi x v reducesTo_S500x64_S_d0_1 h_S_) main_v16 main_c_5
  let main_v18 : IVec S_ 1 := andi main_v13 main_v17
  let main_v19 : FVec F S500x10 .f32 := Host.absf main_arg4
  let main_cst_6 : FVec F S_ .f32 := constant S_ .f32 0x7F800000#32
  let main_v20 : FVec F S500x10 .f32 := broadcastInDim S500x10 ![] bcast_S_S500x10 main_cst_6
  let main_v21 : IVec S500x10 1 := cmpf .olt main_v19 main_v20
  let main_c_7 : IVec S_ 1 := constantI S_ 1 1#1
  let main_v22 : IVec S_ 1 := (fun x v => Host.reduce IntOp.andi x v reducesTo_S500x10_S_d0_1 h_S_) main_v21 main_c_7
  let main_v23 : IVec S_ 1 := andi main_v18 main_v22
  let main_v24 : FVec F S500 .f32 := Host.absf main_arg5
  let main_cst_8 : FVec F S_ .f32 := constant S_ .f32 0x7F800000#32
  let main_v25 : FVec F S500 .f32 := broadcastInDim S500 ![] bcast_S_S500 main_cst_8
  let main_v26 : IVec S500 1 := cmpf .olt main_v24 main_v25
  let main_c_9 : IVec S_ 1 := constantI S_ 1 1#1
  let main_v27 : IVec S_ 1 := (fun x v => Host.reduce IntOp.andi x v reducesTo_S500_S_d0 h_S_) main_v26 main_c_9
  let main_v28 : IVec S_ 1 := andi main_v23 main_v27
  main_v28

def fn {F : FTy → Type} [FloatOps F] (main_arg0 : FVec F S8192x3072 .f32) (main_arg1 : FVec F S500x3 .f32) (main_arg2 : FVec F S500x3072 .f32) (main_arg3 : FVec F S500x64 .f32) (main_arg4 : FVec F S500x10 .f32) (main_arg5 : FVec F S500 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S500x3 .f32 := Host.absf main_arg1
  let main_cst_0 : FVec F S_ .f32 := constant S_ .f32 0x7F800000#32
  let main_v5 : FVec F S500x3 .f32 := broadcastInDim S500x3 ![] bcast_S_S500x3 main_cst_0
  let main_v6 : IVec S500x3 1 := cmpf .olt main_v4 main_v5
  let main_c_1 : IVec S_ 1 := constantI S_ 1 1#1
  let main_v7 : IVec S_ 1 := (fun x v => Host.reduce IntOp.andi x v reducesTo_S500x3_S_d0_1 h_S_) main_v6 main_c_1
  let main_v8 : IVec S_ 1 := andi main_v3 main_v7
  let main_v9 : FVec F S500x3072 .f32 := Host.absf main_arg2
  let main_cst_2 : FVec F S_ .f32 := constant S_ .f32 0x7F800000#32
  let main_v10 : FVec F S500x3072 .f32 := broadcastInDim S500x3072 ![] bcast_S_S500x3072 main_cst_2
  let main_v11 : IVec S500x3072 1 := cmpf .olt main_v9 main_v10
  let main_c_3 : IVec S_ 1 := constantI S_ 1 1#1
  let main_v12 : IVec S_ 1 := (fun x v => Host.reduce IntOp.andi x v reducesTo_S500x3072_S_d0_1 h_S_) main_v11 main_c_3
  let main_v13 : IVec S_ 1 := andi main_v8 main_v12
  let main_v14 : FVec F S500x64 .f32 := Host.absf main_arg3
  let main_cst_4 : FVec F S_ .f32 := constant S_ .f32 0x7F800000#32
  let main_v15 : FVec F S500x64 .f32 := broadcastInDim S500x64 ![] bcast_S_S500x64 main_cst_4
  let main_v16 : IVec S500x64 1 := cmpf .olt main_v14 main_v15
  fn_part1 (F := F) main_arg4 main_arg5 main_v13 main_v16
-- ==== Kernel.lean ====
abbrev S8192x3072 : Shape := ⟨2, ![8192, 3072]⟩
abbrev S500x3 : Shape := ⟨2, ![500, 3]⟩
abbrev S500x3072 : Shape := ⟨2, ![500, 3072]⟩
abbrev S500x64 : Shape := ⟨2, ![500, 64]⟩
abbrev S500x10 : Shape := ⟨2, ![500, 10]⟩
abbrev S500 : Shape := ⟨1, ![500]⟩
abbrev S_ : Shape := ⟨0, ![]⟩
abbrev S500x1x3 : Shape := ⟨3, ![500, 1, 3]⟩
abbrev S1x500x3 : Shape := ⟨3, ![1, 500, 3]⟩
abbrev S500x500x3 : Shape := ⟨3, ![500, 500, 3]⟩
abbrev S500x500 : Shape := ⟨2, ![500, 500]⟩
abbrev S500x1 : Shape := ⟨2, ![500, 1]⟩
abbrev S64x500 : Shape := ⟨2, ![64, 500]⟩
abbrev S3072x500 : Shape := ⟨2, ![3072, 500]⟩
abbrev S3072x512 : Shape := ⟨2, ![3072, 512]⟩
abbrev S512x512 : Shape := ⟨2, ![512, 512]⟩
abbrev S512x10 : Shape := ⟨2, ![512, 10]⟩
abbrev S1x500 : Shape := ⟨2, ![1, 500]⟩
abbrev S1x512 : Shape := ⟨2, ![1, 512]⟩
abbrev S8192x10 : Shape := ⟨2, ![8192, 10]⟩
abbrev S1024x3072 : Shape := ⟨2, ![1024, 3072]⟩
abbrev S1024x10 : Shape := ⟨2, ![1024, 10]⟩
abbrev S1024x512 : Shape := ⟨2, ![1024, 512]⟩
abbrev S1024x768 : Shape := ⟨2, ![1024, 768]⟩
abbrev S768x512 : Shape := ⟨2, ![768, 512]⟩

abbrev nBuf : Space → Nat
  | .hbm => 137
  | .vmem => 9
  | .smem => 0
  | _ => 0

abbrev hbmTy0_0 (i : Nat) : BufTy := match i % 128 with
  | 0 => ⟨S8192x3072, .f32⟩
  | 1 => ⟨S500x3, .f32⟩
  | 2 => ⟨S500x3072, .f32⟩
  | 3 => ⟨S500x64, .f32⟩
  | 4 => ⟨S500x10, .f32⟩
  | 5 => ⟨S500, .f32⟩
  | 6 => ⟨S_, .f32⟩
  | 7 => ⟨S_, .f32⟩
  | 8 => ⟨S_, .f32⟩
  | 9 => ⟨S500x3, .f32⟩
  | 10 => ⟨S500x3, .f32⟩
  | 11 => ⟨S_, .f32⟩
  | 12 => ⟨S500x3, .f32⟩
  | 13 => ⟨S500x3, .f32⟩
  | 14 => ⟨S500x1x3, .f32⟩
  | 15 => ⟨S1x500x3, .f32⟩
  | 16 => ⟨S500x500x3, .f32⟩
  | 17 => ⟨S500x500x3, .f32⟩
  | 18 => ⟨S500x500x3, .f32⟩
  | 19 => ⟨S500x500x3, .f32⟩
  | 20 => ⟨S_, .f32⟩
  | 21 => ⟨S500x500, .f32⟩
  | 22 => ⟨S_, .f32⟩
  | 23 => ⟨S500x500, .f32⟩
  | 24 => ⟨S500x500, .i1⟩
  | 25 => ⟨S_, .f32⟩
  | 26 => ⟨S_, .f32⟩
  | 27 => ⟨S500x500, .f32⟩
  | 28 => ⟨S500x500, .f32⟩
  | 29 => ⟨S500x500, .f32⟩
  | 30 => ⟨S_, .f32⟩
  | 31 => ⟨S_, .f32⟩
  | 32 => ⟨S500x500, .f32⟩
  | 33 => ⟨S500x500, .f32⟩
  | 34 => ⟨S_, .f32⟩
  | 35 => ⟨S500x500, .f32⟩
  | 36 => ⟨S500x500, .i1⟩
  | 37 => ⟨S_, .f32⟩
  | 38 => ⟨S500x500, .f32⟩
  | 39 => ⟨S500x500, .i1⟩
  | 40 => ⟨S500x500, .i1⟩
  | 41 => ⟨S500x500, .f32⟩
  | 42 => ⟨S_, .f32⟩
  | 43 => ⟨S500x500, .f32⟩
  | 44 => ⟨S500x500, .f32⟩
  | 45 => ⟨S500x500, .f32⟩
  | 46 => ⟨S500x500, .f32⟩
  | 47 => ⟨S500x500, .f32⟩
  | 48 => ⟨S500x64, .f32⟩
  | 49 => ⟨S_, .f32⟩
  | 50 => ⟨S500, .f32⟩
  | 51 => ⟨S500x1, .f32⟩
  | 52 => ⟨S500x1, .f32⟩
  | 53 => ⟨S_, .f32⟩
  | 54 => ⟨S500x1, .f32⟩
  | 55 => ⟨S500x1, .f32⟩
  | 56 => ⟨S500x64, .f32⟩
  | 57 => ⟨S500x64, .f32⟩
  | 58 => ⟨S64x500, .f32⟩
  | 59 => ⟨S500x500, .f32⟩
  | 60 => ⟨S_, .f32⟩
  | 61 => ⟨S_, .f32⟩
  | 62 => ⟨S_, .f32⟩
  | 63 => ⟨S500x500, .f32⟩
  | 64 => ⟨S500x500, .f32⟩
  | 65 => ⟨S_, .f32⟩
  | 66 => ⟨S500x500, .f32⟩
  | 67 => ⟨S500x500, .f32⟩
  | 68 => ⟨S_, .f32⟩
  | 69 => ⟨S500x500, .f32⟩
  | 70 => ⟨S500x500, .f32⟩
  | 71 => ⟨S_, .f32⟩
  | 72 => ⟨S500x500, .f32⟩
  | 73 => ⟨S500x500, .f32⟩
  | 74 => ⟨S500x500, .f32⟩
  | 75 => ⟨S_, .f32⟩
  | 76 => ⟨S500, .f32⟩
  | 77 => ⟨S500x1, .f32⟩
  | 78 => ⟨S_, .f32⟩
  | 79 => ⟨S500x1, .f32⟩
  | 80 => ⟨S500x1, .f32⟩
  | 81 => ⟨S500x500, .f32⟩
  | 82 => ⟨S500x500, .f32⟩
  | 83 => ⟨S500x500, .f32⟩
  | 84 => ⟨S500x1, .f32⟩
  | 85 => ⟨S500, .f32⟩
  | 86 => ⟨S_, .f32⟩
  | 87 => ⟨S500, .f32⟩
  | 88 => ⟨S500, .f32⟩
  | 89 => ⟨S_, .f32⟩
  | 90 => ⟨S500, .f32⟩
  | 91 => ⟨S500, .f32⟩
  | 92 => ⟨S500, .f32⟩
  | 93 => ⟨S_, .f32⟩
  | 94 => ⟨S_, .f32⟩
  | 95 => ⟨S_, .f32⟩
  | 96 => ⟨S_, .f32⟩
  | 97 => ⟨S500, .f32⟩
  | 98 => ⟨S500, .f32⟩
  | 99 => ⟨S_, .f32⟩
  | 100 => ⟨S500, .f32⟩
  | 101 => ⟨S500, .f32⟩
  | 102 => ⟨S_, .f32⟩
  | 103 => ⟨S500, .f32⟩
  | 104 => ⟨S500, .f32⟩
  | 105 => ⟨S500, .f32⟩
  | 106 => ⟨S_, .f32⟩
  | 107 => ⟨S_, .f32⟩
  | 108 => ⟨S_, .f32⟩
  | 109 => ⟨S_, .f32⟩
  | 110 => ⟨S500, .f32⟩
  | 111 => ⟨S500, .f32⟩
  | 112 => ⟨S500x1, .f32⟩
  | 113 => ⟨S500x10, .f32⟩
  | 114 => ⟨S500x10, .f32⟩
  | 115 => ⟨S3072x500, .f32⟩
  | 116 => ⟨S3072x500, .bf16⟩
  | 117 => ⟨S_, .i32⟩
  | 118 => ⟨S_, .bf16⟩
  | 119 => ⟨S3072x512, .bf16⟩
  | 120 => ⟨S500x500, .bf16⟩
  | 121 => ⟨S_, .i32⟩
  | 122 => ⟨S_, .bf16⟩
  | 123 => ⟨S512x512, .bf16⟩
  | 124 => ⟨S500x10, .bf16⟩
  | 125 => ⟨S_, .i32⟩
  | 126 => ⟨S_, .bf16⟩
  | 127 => ⟨S512x10, .bf16⟩
  | _ => ⟨S8192x3072, .f32⟩

abbrev hbmTy0_1 (i : Nat) : BufTy := match i % 128 with
  | 0 => ⟨S1x500, .f32⟩
  | 1 => ⟨S_, .i32⟩
  | 2 => ⟨S_, .f32⟩
  | 3 => ⟨S1x512, .f32⟩
  | 4 => ⟨S1x500, .f32⟩
  | 5 => ⟨S_, .i32⟩
  | 6 => ⟨S_, .f32⟩
  | 7 => ⟨S1x512, .f32⟩
  | 8 => ⟨S8192x10, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | .local _ .vmem, ⟨0, _⟩ => ⟨S1024x3072, .f32⟩
  | .local _ .vmem, ⟨1, _⟩ => ⟨S1024x3072, .f32⟩
  | .local _ .vmem, ⟨2, _⟩ => ⟨S3072x512, .bf16⟩
  | .local _ .vmem, ⟨3, _⟩ => ⟨S512x512, .bf16⟩
  | .local _ .vmem, ⟨4, _⟩ => ⟨S512x10, .bf16⟩
  | .local _ .vmem, ⟨5, _⟩ => ⟨S1x512, .f32⟩
  | .local _ .vmem, ⟨6, _⟩ => ⟨S1x512, .f32⟩
  | .local _ .vmem, ⟨7, _⟩ => ⟨S1024x10, .f32⟩
  | .local _ .vmem, ⟨8, _⟩ => ⟨S1024x10, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_call3_v2 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_cst_12 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_cst_14 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_15 : Ref sig .tc := ⟨.hbm, 86, rfl⟩
abbrev main_v46 : Ref sig .tc := ⟨.hbm, 87, rfl⟩
abbrev main_v47 : Ref sig .tc := ⟨.hbm, 88, rfl⟩
abbrev main_cst_16 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_17 : Ref sig .tc := ⟨.hbm, 93, rfl⟩
abbrev main_v51 : Ref sig .tc := ⟨.hbm, 94, rfl⟩
abbrev main_cst_18 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_19 : Ref sig .tc := ⟨.hbm, 99, rfl⟩
abbrev main_v55 : Ref sig .tc := ⟨.hbm, 100, rfl⟩
abbrev main_v56 : Ref sig .tc := ⟨.hbm, 101, rfl⟩
abbrev main_cst_20 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_21 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c : Ref sig .tc := ⟨.hbm, 117, rfl⟩
abbrev main_call5_v0 : Ref sig .tc := ⟨.hbm, 118, rfl⟩
abbrev main_v69 : Ref sig .tc := ⟨.hbm, 119, rfl⟩
abbrev main_v70 : Ref sig .tc := ⟨.hbm, 120, rfl⟩
abbrev main_c_23 : Ref sig .tc := ⟨.hbm, 121, rfl⟩
abbrev main_call6_v0 : Ref sig .tc := ⟨.hbm, 122, rfl⟩
abbrev main_v71 : Ref sig .tc := ⟨.hbm, 123, rfl⟩
abbrev main_v72 : Ref sig .tc := ⟨.hbm, 124, rfl⟩
abbrev main_c_24 : Ref sig .tc := ⟨.hbm, 125, rfl⟩
abbrev main_call7_v0 : Ref sig .tc := ⟨.hbm, 126, rfl⟩
abbrev main_v73 : Ref sig .tc := ⟨.hbm, 127, rfl⟩
abbrev main_v74 : Ref sig .tc := ⟨.hbm, 128, rfl⟩
abbrev main_c_25 : Ref sig .tc := ⟨.hbm, 129, rfl⟩
abbrev main_call8_v0 : Ref sig .tc := ⟨.hbm, 130, rfl⟩
abbrev main_v75 : Ref sig .tc := ⟨.hbm, 131, rfl⟩
abbrev main_v76 : Ref sig .tc := ⟨.hbm, 132, rfl⟩
abbrev main_c_26 : Ref sig .tc := ⟨.hbm, 133, rfl⟩
abbrev main_call9_v0 : Ref sig .tc := ⟨.hbm, 134, rfl⟩
abbrev main_v77 : Ref sig .tc := ⟨.hbm, 135, rfl⟩
abbrev main_v78 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c768_i32 : BitVec 32 := 768#32
  let v1 : BitVec 32 := Scalar.muli c0_i32 c768_i32
  v1
def k0_off1 (c0_i32 : BitVec 32) : Fin 2 → Nat :=
  let c0 : Index := 0#32
  let c768_i32 : BitVec 32 := 768#32
  let v1 : BitVec 32 := Scalar.muli c0_i32 c768_i32
  let v2 : BitVec 32 := v1
  let v3 : Index := Scalar.indexCast v2
  ![0, v3.toNat]
def k0_off2 (c0_i32 : BitVec 32) : Fin 2 → Nat :=
  let c768_i32 : BitVec 32 := 768#32
  let v1 : BitVec 32 := Scalar.muli c0_i32 c768_i32
  let v2 : BitVec 32 := v1
  let v6 : Index := Scalar.indexCast v2
  let c0_0 : Index := 0#32
  ![v6.toNat, 0]
def k0_mult2 : BitVec 32 :=
  let c1_i32 : BitVec 32 := 1#32
  let c768_i32_2 : BitVec 32 := 768#32
  let v11 : BitVec 32 := Scalar.muli c1_i32 c768_i32_2
  v11
def k0_mult3 : BitVec 32 :=
  let c2_i32 : BitVec 32 := 2#32
  let c768_i32_6 : BitVec 32 := 768#32
  let v21 : BitVec 32 := Scalar.muli c2_i32 c768_i32_6
  v21
def k0_mult4 : BitVec 32 :=
  let c3_i32 : BitVec 32 := 3#32
  let c768_i32_10 : BitVec 32 := 768#32
  let v31 : BitVec 32 := Scalar.muli c3_i32 c768_i32_10
  v31
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S500x3 : S_.BroadcastsInDim S500x3 (![] : Fin 0 → Fin S500x3.rank)
  bcast_S500x3_S500x1x3_0_2 : S500x3.BroadcastsInDim S500x1x3 (![0, 2] : Fin 2 → Fin S500x1x3.rank)
  bcast_S500x3_S1x500x3_1_2 : S500x3.BroadcastsInDim S1x500x3 (![1, 2] : Fin 2 → Fin S1x500x3.rank)
  bcast_S500x1x3_S500x500x3_0_1_2 : S500x1x3.BroadcastsInDim S500x500x3 (![0, 1, 2] : Fin 3 → Fin S500x500x3.rank)
  bcast_S1x500x3_S500x500x3_0_1_2 : S1x500x3.BroadcastsInDim S500x500x3 (![0, 1, 2] : Fin 3 → Fin S500x500x3.rank)
  reducesTo_S500x500x3_S500x500_d2 : S500x500x3.ReducesTo [2] S500x500
  h_S_ : 0 < S_.numel
  bcast_S_S500x500 : S_.BroadcastsInDim S500x500 (![] : Fin 0 → Fin S500x500.rank)
  reducesTo_S500x64_S500_d1 : S500x64.ReducesTo [1] S500
  bcast_S500_S500x1_0 : S500.BroadcastsInDim S500x1 (![0] : Fin 1 → Fin S500x1.rank)
  bcast_S_S500x1 : S_.BroadcastsInDim S500x1 (![] : Fin 0 → Fin S500x1.rank)
  bcast_S500x1_S500x64_0_1 : S500x1.BroadcastsInDim S500x64 (![0, 1] : Fin 2 → Fin S500x64.rank)
  transposes_S500x64_S64x500_1_0 : S500x64.Transposes [1, 0] S64x500
  reducesTo_S500x500_S500_d1 : S500x500.ReducesTo [1] S500
  bcast_S500x1_S500x500_0_1 : S500x1.BroadcastsInDim S500x500 (![0, 1] : Fin 2 → Fin S500x500.rank)
  transposes_S500x500_S500x500_1_0 : S500x500.Transposes [1, 0] S500x500
  slices_S500x3_S500x1_0_0 : S500x3.Slices ![0, 0] S500x1
  shapeCasts_S500x1_S500 : S500x1.ShapeCasts S500
  bcast_S_S500 : S_.BroadcastsInDim S500 (![] : Fin 0 → Fin S500.rank)
  reducesTo_S500_S_d0 : S500.ReducesTo [0] S_
  bcast_S500x1_S500x10_0_1 : S500x1.BroadcastsInDim S500x10 (![0, 1] : Fin 2 → Fin S500x10.rank)
  transposes_S500x3072_S3072x500_1_0 : S500x3072.Transposes [1, 0] S3072x500
  bitsLt_bf16_f32 : FTy.bits .bf16 < FTy.bits .f32
  pads_S3072x500_S3072x512_000_0120 : S3072x500.Pads (![0, 0] : Fin 2 → Nat) ![0, 12] ![0, 0] S3072x512
  pads_S500x500_S512x512_0120_0120 : S500x500.Pads (![0, 0] : Fin 2 → Nat) ![12, 12] ![0, 0] S512x512
  pads_S500x10_S512x10_0120_000 : S500x10.Pads (![0, 0] : Fin 2 → Nat) ![12, 0] ![0, 0] S512x10
  shapeCasts_S500_S1x500 : S500.ShapeCasts S1x500
  pads_S1x500_S1x512_000_0120 : S1x500.Pads (![0, 0] : Fin 2 → Nat) ![0, 12] ![0, 0] S1x512
  h_S1024x768 : 0 < S1024x768.numel
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1024x10_S1024x10_0_0 : ∀ a, (![0, 0] : Fin 2 → Nat) a + S1024x10.size a ≤ S1024x10.size a
  h_S1024x10 : 0 < S1024x10.numel
  dot_S500x64_S64x500_S500x500_1_0_0_1_n_n_wf : DotDims.WF S500x64 S64x500 S500x500 [1] [0] [0] [1] [] []
  dot_S1024x768_S768x512_S1024x512_1_0_0_1_n_n_wf : DotDims.WF S1024x768 S768x512 S1024x512 [1] [0] [0] [1] [] []
  dot_S1024x512_S512x512_S1024x512_1_0_0_1_n_n_wf : DotDims.WF S1024x512 S512x512 S1024x512 [1] [0] [0] [1] [] []
  dot_S1024x512_S512x10_S1024x10_1_0_0_1_n_n_wf : DotDims.WF S1024x512 S512x10 S1024x10 [1] [0] [0] [1] [] []
  hrank0 : 0 < grid0.rank
  k0_mult1_dvd : 768 ∣ k0_mult1.toNat
  k0_off1_inb : ∀ (r : Fin 4), ∀ a, (k0_off1 (BitVec.ofNat 32 r.val)) a + S1024x768.size a ≤ S1024x3072.size a
  k0_off2_inb : ∀ (r : Fin 4), ∀ a, (k0_off2 (BitVec.ofNat 32 r.val)) a + S768x512.size a ≤ S3072x512.size a
  k0_mult2_dvd : 768 ∣ k0_mult2.toNat
  k0_mult3_dvd : 768 ∣ k0_mult3.toNat
  k0_mult4_dvd : 768 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S8192x3072.size a
  hwx0_0 : ∀ i : grid0.Coords, EltTy.bits .f32 = 32 ∨ (Rect.block (s := S8192x3072) S1024x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x512.size a ≤ S3072x512.size a
  hwx0_1 : ∀ i : grid0.Coords, EltTy.bits .bf16 = 32 ∨ (Rect.block (s := S3072x512) S3072x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x10.size a ≤ S512x10.size a
  hwx0_3 : ∀ i : grid0.Coords, EltTy.bits .bf16 = 32 ∨ (Rect.block (s := S512x10) S512x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x10.size a ≤ S8192x10.size a
  hwx0_6 : ∀ i : grid0.Coords, EltTy.bits .f32 = 32 ∨ (Rect.block (s := S8192x10) S1024x10.size (cc0_transform_6 i) (hinb0_6 i)).WholeWords (EltTy.packing .f32)

variable [Facts₀]

def dot_S500x64_S64x500_S500x500_1_0_0_1_n_n : DotDims S500x64 S64x500 S500x500 where
  lhsContracting := [1]
  rhsContracting := [0]
  lhsNonContracting := [0]
  rhsNonContracting := [1]
  lhsBatch := []
  rhsBatch := []
  wf := dot_S500x64_S64x500_S500x500_1_0_0_1_n_n_wf
def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x10_S1024x10_1_0_0_1_n_n : DotDims S1024x512 S512x10 S1024x10 where
  lhsContracting := [1]
  rhsContracting := [0]
  lhsNonContracting := [0]
  rhsNonContracting := [1]
  lhsBatch := []
  rhsBatch := []
  wf := dot_S1024x512_S512x10_S1024x10_1_0_0_1_n_n_wf

abbrev win0_0 : Pipeline.Window sig grid0 :=
  Pipeline.Window.ofSpec (Memref.whole main_arg0) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S3072x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v71) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v73) S512x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v75) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v77) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v78) S1024x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S500x3 : Shape := ⟨2, ![500, 3]⟩
abbrev S500x3072 : Shape := ⟨2, ![500, 3072]⟩
abbrev S500x64 : Shape := ⟨2, ![500, 64]⟩
abbrev S500x10 : Shape := ⟨2, ![500, 10]⟩
abbrev S500 : Shape := ⟨1, ![500]⟩
abbrev S_ : Shape := ⟨0, ![]⟩
abbrev S500x1x3 : Shape := ⟨3, ![500, 1, 3]⟩
abbrev S1x500x3 : Shape := ⟨3, ![1, 500, 3]⟩
abbrev S500x500x3 : Shape := ⟨3, ![500, 500, 3]⟩
abbrev S500x500 : Shape := ⟨2, ![500, 500]⟩
abbrev S500x1 : Shape := ⟨2, ![500, 1]⟩
abbrev S64x500 : Shape := ⟨2, ![64, 500]⟩
abbrev S3072x500 : Shape := ⟨2, ![3072, 500]⟩
abbrev S8192x500 : Shape := ⟨2, ![8192, 500]⟩
abbrev S1x500 : Shape := ⟨2, ![1, 500]⟩
abbrev S8192x10 : Shape := ⟨2, ![8192, 10]⟩

abbrev nBuf : Space → Nat
  | .hbm => 159
  | .vmem => 0
  | .smem => 0
  | _ => 0

abbrev hbmTy0_0 (i : Nat) : BufTy := match i % 128 with
  | 0 => ⟨S8192x3072, .f32⟩
  | 1 => ⟨S500x3, .f32⟩
  | 2 => ⟨S500x3072, .f32⟩
  | 3 => ⟨S500x64, .f32⟩
  | 4 => ⟨S500x10, .f32⟩
  | 5 => ⟨S500, .f32⟩
  | 6 => ⟨S_, .f32⟩
  | 7 => ⟨S_, .f32⟩
  | 8 => ⟨S_, .f32⟩
  | 9 => ⟨S500x3, .f32⟩
  | 10 => ⟨S500x3, .f32⟩
  | 11 => ⟨S_, .f32⟩
  | 12 => ⟨S500x3, .f32⟩
  | 13 => ⟨S500x3, .f32⟩
  | 14 => ⟨S500x1x3, .f32⟩
  | 15 => ⟨S1x500x3, .f32⟩
  | 16 => ⟨S500x500x3, .f32⟩
  | 17 => ⟨S500x500x3, .f32⟩
  | 18 => ⟨S500x500x3, .f32⟩
  | 19 => ⟨S500x500x3, .f32⟩
  | 20 => ⟨S_, .f32⟩
  | 21 => ⟨S500x500, .f32⟩
  | 22 => ⟨S_, .f32⟩
  | 23 => ⟨S500x500, .f32⟩
  | 24 => ⟨S500x500, .i1⟩
  | 25 => ⟨S_, .f32⟩
  | 26 => ⟨S_, .f32⟩
  | 27 => ⟨S500x500, .f32⟩
  | 28 => ⟨S500x500, .f32⟩
  | 29 => ⟨S500x500, .f32⟩
  | 30 => ⟨S_, .f32⟩
  | 31 => ⟨S_, .f32⟩
  | 32 => ⟨S500x500, .f32⟩
  | 33 => ⟨S500x500, .f32⟩
  | 34 => ⟨S_, .f32⟩
  | 35 => ⟨S500x500, .f32⟩
  | 36 => ⟨S500x500, .i1⟩
  | 37 => ⟨S_, .f32⟩
  | 38 => ⟨S500x500, .f32⟩
  | 39 => ⟨S500x500, .i1⟩
  | 40 => ⟨S500x500, .i1⟩
  | 41 => ⟨S500x500, .f32⟩
  | 42 => ⟨S_, .f32⟩
  | 43 => ⟨S500x500, .f32⟩
  | 44 => ⟨S500x500, .f32⟩
  | 45 => ⟨S500x500, .f32⟩
  | 46 => ⟨S500x500, .f32⟩
  | 47 => ⟨S500x500, .f32⟩
  | 48 => ⟨S500x64, .f32⟩
  | 49 => ⟨S_, .f32⟩
  | 50 => ⟨S500, .f32⟩
  | 51 => ⟨S500x1, .f32⟩
  | 52 => ⟨S500x1, .f32⟩
  | 53 => ⟨S_, .f32⟩
  | 54 => ⟨S500x1, .f32⟩
  | 55 => ⟨S500x1, .f32⟩
  | 56 => ⟨S500x64, .f32⟩
  | 57 => ⟨S500x64, .f32⟩
  | 58 => ⟨S64x500, .f32⟩
  | 59 => ⟨S500x500, .f32⟩
  | 60 => ⟨S_, .f32⟩
  | 61 => ⟨S_, .f32⟩
  | 62 => ⟨S_, .f32⟩
  | 63 => ⟨S500x500, .f32⟩
  | 64 => ⟨S500x500, .f32⟩
  | 65 => ⟨S_, .f32⟩
  | 66 => ⟨S500x500, .f32⟩
  | 67 => ⟨S500x500, .f32⟩
  | 68 => ⟨S_, .f32⟩
  | 69 => ⟨S500x500, .f32⟩
  | 70 => ⟨S500x500, .f32⟩
  | 71 => ⟨S_, .f32⟩
  | 72 => ⟨S500x500, .f32⟩
  | 73 => ⟨S500x500, .f32⟩
  | 74 => ⟨S500x500, .f32⟩
  | 75 => ⟨S_, .f32⟩
  | 76 => ⟨S500, .f32⟩
  | 77 => ⟨S500x1, .f32⟩
  | 78 => ⟨S_, .f32⟩
  | 79 => ⟨S500x1, .f32⟩
  | 80 => ⟨S500x1, .f32⟩
  | 81 => ⟨S500x500, .f32⟩
  | 82 => ⟨S500x500, .f32⟩
  | 83 => ⟨S500x1, .f32⟩
  | 84 => ⟨S500, .f32⟩
  | 85 => ⟨S_, .f32⟩
  | 86 => ⟨S500, .f32⟩
  | 87 => ⟨S500, .f32⟩
  | 88 => ⟨S_, .f32⟩
  | 89 => ⟨S500, .f32⟩
  | 90 => ⟨S500, .f32⟩
  | 91 => ⟨S500, .f32⟩
  | 92 => ⟨S_, .f32⟩
  | 93 => ⟨S_, .f32⟩
  | 94 => ⟨S_, .f32⟩
  | 95 => ⟨S_, .f32⟩
  | 96 => ⟨S500, .f32⟩
  | 97 => ⟨S500, .f32⟩
  | 98 => ⟨S3072x500, .f32⟩
  | 99 => ⟨S8192x500, .f32⟩
  | 100 => ⟨S1x500, .f32⟩
  | 101 => ⟨S8192x500, .f32⟩
  | 102 => ⟨S8192x500, .f32⟩
  | 103 => ⟨S1x500, .f32⟩
  | 104 => ⟨S8192x500, .f32⟩
  | 105 => ⟨S8192x500, .f32⟩
  | 106 => ⟨S500x500, .f32⟩
  | 107 => ⟨S8192x500, .f32⟩
  | 108 => ⟨S_, .f32⟩
  | 109 => ⟨S8192x500, .f32⟩
  | 110 => ⟨S8192x500, .f32⟩
  | 111 => ⟨S8192x500, .f32⟩
  | 112 => ⟨S_, .f32⟩
  | 113 => ⟨S8192x500, .f32⟩
  | 114 => ⟨S8192x500, .f32⟩
  | 115 => ⟨S_, .f32⟩
  | 116 => ⟨S8192x500, .f32⟩
  | 117 => ⟨S8192x500, .f32⟩
  | 118 => ⟨S500x500, .f32⟩
  | 119 => ⟨S8192x500, .f32⟩
  | 120 => ⟨S_, .f32⟩
  | 121 => ⟨S8192x500, .f32⟩
  | 122 => ⟨S8192x500, .f32⟩
  | 123 => ⟨S8192x500, .f32⟩
  | 124 => ⟨S_, .f32⟩
  | 125 => ⟨S8192x500, .f32⟩
  | 126 => ⟨S8192x500, .f32⟩
  | 127 => ⟨S_, .f32⟩
  | _ => ⟨S8192x3072, .f32⟩

abbrev hbmTy0_1 (i : Nat) : BufTy := match i % 128 with
  | 0 => ⟨S8192x500, .f32⟩
  | 1 => ⟨S8192x500, .f32⟩
  | 2 => ⟨S500x500, .f32⟩
  | 3 => ⟨S8192x500, .f32⟩
  | 4 => ⟨S_, .f32⟩
  | 5 => ⟨S8192x500, .f32⟩
  | 6 => ⟨S8192x500, .f32⟩
  | 7 => ⟨S8192x500, .f32⟩
  | 8 => ⟨S_, .f32⟩
  | 9 => ⟨S8192x500, .f32⟩
  | 10 => ⟨S8192x500, .f32⟩
  | 11 => ⟨S_, .f32⟩
  | 12 => ⟨S8192x500, .f32⟩
  | 13 => ⟨S8192x500, .f32⟩
  | 14 => ⟨S_, .f32⟩
  | 15 => ⟨S500, .f32⟩
  | 16 => ⟨S500, .f32⟩
  | 17 => ⟨S_, .f32⟩
  | 18 => ⟨S500, .f32⟩
  | 19 => ⟨S500, .f32⟩
  | 20 => ⟨S500, .f32⟩
  | 21 => ⟨S_, .f32⟩
  | 22 => ⟨S_, .f32⟩
  | 23 => ⟨S_, .f32⟩
  | 24 => ⟨S_, .f32⟩
  | 25 => ⟨S500, .f32⟩
  | 26 => ⟨S500, .f32⟩
  | 27 => ⟨S500x1, .f32⟩
  | 28 => ⟨S500x10, .f32⟩
  | 29 => ⟨S500x10, .f32⟩
  | 30 => ⟨S8192x10, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_7 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_cst : Ref sig .tc := ⟨.hbm, 49, rfl⟩
abbrev main_call3_v1 : Ref sig .tc := ⟨.hbm, 50, rfl⟩
abbrev main_call3_v2 : Ref sig .tc := ⟨.hbm, 51, rfl⟩
abbrev main_v24 : Ref sig .tc := ⟨.hbm, 52, rfl⟩
abbrev main_cst_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_cst_12 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_cst_14 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_15 : Ref sig .tc := ⟨.hbm, 85, rfl⟩
abbrev main_v45 : Ref sig .tc := ⟨.hbm, 86, rfl⟩
abbrev main_v46 : Ref sig .tc := ⟨.hbm, 87, rfl⟩
abbrev main_cst_16 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_17 : Ref sig .tc := ⟨.hbm, 92, rfl⟩
abbrev main_v50 : Ref sig .tc := ⟨.hbm, 93, rfl⟩
abbrev main_cst_18 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_19 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call5_cst : Ref sig .tc := ⟨.hbm, 112, rfl⟩
abbrev main_call5_v0 : Ref sig .tc := ⟨.hbm, 113, rfl⟩
abbrev main_v67 : Ref sig .tc := ⟨.hbm, 114, rfl⟩
abbrev main_cst_20 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_21 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_call6_cst : Ref sig .tc := ⟨.hbm, 124, rfl⟩
abbrev main_call6_v0 : Ref sig .tc := ⟨.hbm, 125, rfl⟩
abbrev main_v75 : Ref sig .tc := ⟨.hbm, 126, rfl⟩
abbrev main_cst_22 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_23 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_call7_cst : Ref sig .tc := ⟨.hbm, 136, rfl⟩
abbrev main_call7_v0 : Ref sig .tc := ⟨.hbm, 137, rfl⟩
abbrev main_v83 : Ref sig .tc := ⟨.hbm, 138, rfl⟩
abbrev main_cst_24 : Ref sig .tc := ⟨.hbm, 139, rfl⟩
abbrev main_v84 : Ref sig .tc := ⟨.hbm, 140, rfl⟩
abbrev main_v85 : Ref sig .tc := ⟨.hbm, 141, rfl⟩
abbrev main_cst_25 : Ref sig .tc := ⟨.hbm, 142, rfl⟩
abbrev main_v86 : Ref sig .tc := ⟨.hbm, 143, rfl⟩
abbrev main_v87 : Ref sig .tc := ⟨.hbm, 144, rfl⟩
abbrev main_cst_26 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_27 : Ref sig .tc := ⟨.hbm, 149, rfl⟩
abbrev main_v91 : Ref sig .tc := ⟨.hbm, 150, rfl⟩
abbrev main_cst_28 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩

abbrev nD : Nat := 1
abbrev τ : Topo := Topo.v7x

variable {F : FTy → Type} [FloatOps F]

class Facts₀ : Prop where
  bcast_S_S500x3 : S_.BroadcastsInDim S500x3 (![] : Fin 0 → Fin S500x3.rank)
  bcast_S500x3_S500x1x3_0_2 : S500x3.BroadcastsInDim S500x1x3 (![0, 2] : Fin 2 → Fin S500x1x3.rank)
  bcast_S500x3_S1x500x3_1_2 : S500x3.BroadcastsInDim S1x500x3 (![1, 2] : Fin 2 → Fin S1x500x3.rank)
  bcast_S500x1x3_S500x500x3_0_1_2 : S500x1x3.BroadcastsInDim S500x500x3 (![0, 1, 2] : Fin 3 → Fin S500x500x3.rank)
  bcast_S1x500x3_S500x500x3_0_1_2 : S1x500x3.BroadcastsInDim S500x500x3 (![0, 1, 2] : Fin 3 → Fin S500x500x3.rank)
  reducesTo_S500x500x3_S500x500_d2 : S500x500x3.ReducesTo [2] S500x500
  h_S_ : 0 < S_.numel
  bcast_S_S500x500 : S_.BroadcastsInDim S500x500 (![] : Fin 0 → Fin S500x500.rank)
  reducesTo_S500x64_S500_d1 : S500x64.ReducesTo [1] S500
  bcast_S500_S500x1_0 : S500.BroadcastsInDim S500x1 (![0] : Fin 1 → Fin S500x1.rank)
  bcast_S_S500x1 : S_.BroadcastsInDim S500x1 (![] : Fin 0 → Fin S500x1.rank)
  bcast_S500x1_S500x64_0_1 : S500x1.BroadcastsInDim S500x64 (![0, 1] : Fin 2 → Fin S500x64.rank)
  transposes_S500x64_S64x500_1_0 : S500x64.Transposes [1, 0] S64x500
  reducesTo_S500x500_S500_d1 : S500x500.ReducesTo [1] S500
  bcast_S500x1_S500x500_0_1 : S500x1.BroadcastsInDim S500x500 (![0, 1] : Fin 2 → Fin S500x500.rank)
  slices_S500x3_S500x1_0_0 : S500x3.Slices ![0, 0] S500x1
  shapeCasts_S500x1_S500 : S500x1.ShapeCasts S500
  bcast_S_S500 : S_.BroadcastsInDim S500 (![] : Fin 0 → Fin S500.rank)
  reducesTo_S500_S_d0 : S500.ReducesTo [0] S_
  transposes_S500x3072_S3072x500_1_0 : S500x3072.Transposes [1, 0] S3072x500
  bcast_S500_S1x500_1 : S500.BroadcastsInDim S1x500 (![1] : Fin 1 → Fin S1x500.rank)
  bcast_S1x500_S8192x500_0_1 : S1x500.BroadcastsInDim S8192x500 (![0, 1] : Fin 2 → Fin S8192x500.rank)
  transposes_S500x500_S500x500_1_0 : S500x500.Transposes [1, 0] S500x500
  bcast_S_S8192x500 : S_.BroadcastsInDim S8192x500 (![] : Fin 0 → Fin S8192x500.rank)
  bcast_S500x1_S500x10_0_1 : S500x1.BroadcastsInDim S500x10 (![0, 1] : Fin 2 → Fin S500x10.rank)
  dot_S500x64_S64x500_S500x500_1_0_0_1_n_n_wf : DotDims.WF S500x64 S64x500 S500x500 [1] [0] [0] [1] [] []
  dot_S8192x3072_S3072x500_S8192x500_1_0_0_1_n_n_wf : DotDims.WF S8192x3072 S3072x500 S8192x500 [1] [0] [0] [1] [] []
  dot_S8192x500_S500x500_S8192x500_1_0_0_1_n_n_wf : DotDims.WF S8192x500 S500x500 S8192x500 [1] [0] [0] [1] [] []
  dot_S8192x500_S500x10_S8192x10_1_0_0_1_n_n_wf : DotDims.WF S8192x500 S500x10 S8192x10 [1] [0] [0] [1] [] []

variable [Facts₀]

def dot_S500x64_S64x500_S500x500_1_0_0_1_n_n : DotDims S500x64 S64x500 S500x500 where
  lhsContracting := [1]
  rhsContracting := [0]
  lhsNonContracting := [0]
  rhsNonContracting := [1]
  lhsBatch := []
  rhsBatch := []
  wf := dot_S500x64_S64x500_S500x500_1_0_0_1_n_n_wf
def dot_S8192x3072_S3072x500_S8192x500_1_0_0_1_n_n : DotDims S8192x3072 S3072x500 S8192x500 where
  lhsContracting := [1]
  rhsContracting := [0]
  lhsNonContracting := [0]
  rhsNonContracting := [1]
  lhsBatch := []
  rhsBatch := []
  wf := dot_S8192x3072_S3072x500_S8192x500_1_0_0_1_n_n_wf
def dot_S8192x500_S500x500_S8192x500_1_0_0_1_n_n : DotDims S8192x500 S500x500 S8192x500 where
  lhsContracting := [1]
  rhsContracting := [0]
  lhsNonContracting := [0]
  rhsNonContracting := [1]
  lhsBatch := []
  rhsBatch := []
  wf := dot_S8192x500_S500x500_S8192x500_1_0_0_1_n_n_wf
def dot_S8192x500_S500x10_S8192x10_1_0_0_1_n_n : DotDims S8192x500 S500x10 S8192x10 where
  lhsContracting := [1]
  rhsContracting := [0]
  lhsNonContracting := [0]
  rhsNonContracting := [1]
  lhsBatch := []
  rhsBatch := []
  wf := dot_S8192x500_S500x10_S8192x10_1_0_0_1_n_n_wf

class Facts : Prop extends Facts₀ where

variable [Facts]
-- ==== Proof.Net.lean ====
/-
  The network both programs compute, one batch row at a time, over the extended reals.

  A row `x` of 3072 inputs is projected onto 500 units (`IW`), gated (`g`) and shifted (`bias`); three rounds of
  message passing follow, each replacing the activation `A j` by `φ (A j) (∑ i, A i * CW j i)` for one fixed
  combining function `φ`; the result is read out through `OW` onto 10 outputs.  That is `Net.out`.

  `Net.pout` is the same computation laid out on 512 lanes: every array indexed by a unit is extended to 512
  entries, the input projection is accumulated in four consecutive chunks of 768 inputs starting from zero, and every
  sum over units runs over all 512 lanes.  When the extension rows of the message-passing and read-out matrices are
  zero, and the arrays agree on the first 500 lanes, the two coincide (`Net.pout_eq_out`): a product with a zero
  entry vanishes on the extended reals whatever the other factor is, so the extra lanes never contribute to a sum
  that is read, and a sum over 3072 inputs is the sum of its four blocks of 768 because addition of extended reals is
  associative and commutative.
-/
import Idealize.ShloMosaic.PureOps.Ideal

noncomputable section

namespace Cert.Net

open Idealize.ShloMosaic

/-- Lane `j` of the 500 units, among the 512 lanes. -/
def lane (j : Fin 500) : Fin 512 := ⟨j.val, by omega⟩

/-- Input `k` of chunk `c`, among the 3072 inputs: chunks are consecutive blocks of 768. -/
def chunk (c : Fin 4) (k : Fin 768) : Fin 3072 := ⟨768 * c.val + k.val, by omega⟩

/-- The combining function of one round of message passing: `min (max (a + ½·s) 0) 50`, with the three constants as
    the binary words both programs spell them by. -/
def phi (a s : EReal) : EReal :=
  min (max (a + Ideal.ofBits .f32 0x3F000000#32 * s) (Ideal.ofBits .f32 0x00000000#32)) (Ideal.ofBits .f32 0x42480000#32)

section Plain
variable (φ : EReal → EReal → EReal) (x : Fin 3072 → EReal) (IW : Fin 500 → Fin 3072 → EReal) (g bias : Fin 500 → EReal)
  (CW : Fin 500 → Fin 500 → EReal) (OW : Fin 500 → Fin 10 → EReal)

/-- The gated, shifted input projection of the row. -/
def act0 (j : Fin 500) : EReal := (∑ k : Fin 3072, x k * IW j k) * g j + bias j

/-- One round of message passing: unit `j` combines its activation with the activations weighted by row `j` of `CW`. -/
def step (A : Fin 500 → EReal) (j : Fin 500) : EReal := φ (A j) (∑ i : Fin 500, A i * CW j i)

/-- The activations after the three rounds. -/
def act3 : Fin 500 → EReal := step φ CW (step φ CW (step φ CW (act0 x IW g bias)))

/-- The row's ten outputs. -/
def out (o : Fin 10) : EReal := ∑ i : Fin 500, act3 φ x IW g bias CW i * OW i o
end Plain

section Padded
variable (φ : EReal → EReal → EReal) (x : Fin 3072 → EReal) (IWp : Fin 3072 → Fin 512 → EReal) (gp biasp : Fin 512 → EReal)
  (CWp : Fin 512 → Fin 512 → EReal) (OWp : Fin 512 → Fin 10 → EReal)

/-- The input projection on 512 lanes, accumulated from zero in four chunks of 768 inputs, then gated and shifted. -/
def pact0 (j : Fin 512) : EReal :=
  ((((0 + ∑ k : Fin 768, x (chunk 0 k) * IWp (chunk 0 k) j) + ∑ k : Fin 768, x (chunk 1 k) * IWp (chunk 1 k) j)
      + ∑ k : Fin 768, x (chunk 2 k) * IWp (chunk 2 k) j) + ∑ k : Fin 768, x (chunk 3 k) * IWp (chunk 3 k) j) * gp j + biasp j

/-- One round on 512 lanes; the matrix is stored transposed: lane `j` reads column `j` of `CWp`. -/
def pstep (A : Fin 512 → EReal) (j : Fin 512) : EReal := φ (A j) (∑ i : Fin 512, A i * CWp i j)

/-- The activations on 512 lanes after the three rounds. -/
def pact3 : Fin 512 → EReal := pstep φ CWp (pstep φ CWp (pstep φ CWp (pact0 x IWp gp biasp)))

/-- The ten outputs, summed over all 512 lanes. -/
def pout (o : Fin 10) : EReal := ∑ i : Fin 512, pact3 φ x IWp gp biasp CWp i * OWp i o
end Padded

end Cert.Net

end
-- ==== Proof.NetAlgebra.lean ====
/-
  The padded layout of the network computes the same ten outputs as the plain one.

  Three facts about sums of extended reals carry the whole argument, and none of them needs a finite value:
  addition is associative and commutative, so a sum may be reindexed and cut into blocks freely; and a product with a
  zero factor is zero whatever the other factor is (including the two infinities), so a lane whose weight is zero
  contributes nothing to a sum.

  * `sum_lanes`: a sum over the 512 lanes of terms vanishing on the lanes from 500 on is the sum over the 500 units.
  * `sum_chunks`: four consecutive blocks of 768 inputs, added left to right starting from zero, make up the sum over
    all 3072 inputs.
  * `pact0_lane`, `pstep_lane`: on the first 500 lanes the padded input projection and each padded round agree with
    the plain ones; the lanes from 500 on are never read, because every sum that is read weights them by zero.
-/
import proofs.«168813_j15152644620827_2_alg».proof.Proof.Net

namespace Cert.Net

/-- The lane map is injective. -/
theorem lane_injective : Function.Injective lane := by
  intro a b h
  have hv : (lane a).val = (lane b).val := congrArg Fin.val h
  exact Fin.ext hv

/-- A sum over the 512 lanes whose terms vanish from lane 500 on is the sum over the 500 units. -/
theorem sum_lanes (f : Fin 512 → EReal) (h : ∀ i : Fin 512, 500 ≤ i.val → f i = 0) :
    ∑ i : Fin 512, f i = ∑ i : Fin 500, f (lane i) := by
  refine (Fintype.sum_of_injective lane lane_injective (fun i => f (lane i)) f ?_ (fun _ => rfl)).symm
  intro i hi
  apply h
  by_contra hlt
  exact hi ⟨⟨i.val, by omega⟩, Fin.ext rfl⟩

/-- The four blocks of 768 inputs, added left to right from zero, make up the sum over all 3072 inputs. -/
theorem sum_chunks (F : Fin 3072 → EReal) :
    ((((0 + ∑ k : Fin 768, F (chunk 0 k)) + ∑ k : Fin 768, F (chunk 1 k)) + ∑ k : Fin 768, F (chunk 2 k))
      + ∑ k : Fin 768, F (chunk 3 k)) = ∑ k : Fin 3072, F k := by
  have e : ∑ k : Fin 3072, F k = ∑ c : Fin 4, ∑ k : Fin 768, F (chunk c k) := by
    rw [← Fintype.sum_prod_type' (fun c k => F (chunk c k))]
    refine (Fintype.sum_equiv (finProdFinEquiv : Fin 4 × Fin 768 ≃ Fin (4 * 768))
      (fun p => F (chunk p.1 p.2)) F (fun p => congrArg F (Fin.ext ?_))).symm
    show 768 * p.1.val + p.2.val = p.2.val + 768 * p.1.val
    exact Nat.add_comm _ _
  rw [e, Fin.sum_univ_four, zero_add]

section
variable (φ : EReal → EReal → EReal) (x : Fin 3072 → EReal)
  (IW : Fin 500 → Fin 3072 → EReal) (g bias : Fin 500 → EReal) (CW : Fin 500 → Fin 500 → EReal)
  (OW : Fin 500 → Fin 10 → EReal)
  (IWp : Fin 3072 → Fin 512 → EReal) (gp biasp : Fin 512 → EReal) (CWp : Fin 512 → Fin 512 → EReal)
  (OWp : Fin 512 → Fin 10 → EReal)

/-- On the first 500 lanes the padded input projection is the plain one. -/
theorem pact0_lane (hIW : ∀ (k : Fin 3072) (j : Fin 500), IWp k (lane j) = IW j k)
    (hg : ∀ j : Fin 500, gp (lane j) = g j) (hb : ∀ j : Fin 500, biasp (lane j) = bias j) (j : Fin 500) :
    pact0 x IWp gp biasp (lane j) = act0 x IW g bias j := by
  unfold pact0 act0
  simp only [hIW, hg, hb]
  exact congrArg (fun s => s * g j + bias j) (sum_chunks (fun k => x k * IW j k))

/-- One padded round agrees with one plain round on the first 500 lanes, as soon as the activations it starts from
    do: the lanes from 500 on enter the sum with weight zero. -/
theorem pstep_lane (hCW : ∀ i j : Fin 500, CWp (lane i) (lane j) = CW j i)
    (hCW0 : ∀ (i j : Fin 512), 500 ≤ i.val → CWp i j = 0)
    (A : Fin 512 → EReal) (B : Fin 500 → EReal) (h : ∀ j, A (lane j) = B j) (j : Fin 500) :
    pstep φ CWp A (lane j) = step φ CW B j := by
  unfold pstep step
  rw [h j, sum_lanes (fun i => A i * CWp i (lane j)) (fun i hi => by rw [hCW0 i (lane j) hi, mul_zero])]
  simp only [h, hCW]

/-- The padded layout computes the plain network's outputs. -/
theorem pout_eq_out
    (hIW : ∀ (k : Fin 3072) (j : Fin 500), IWp k (lane j) = IW j k)
    (hg : ∀ j : Fin 500, gp (lane j) = g j) (hb : ∀ j : Fin 500, biasp (lane j) = bias j)
    (hCW : ∀ i j : Fin 500, CWp (lane i) (lane j) = CW j i)
    (hCW0 : ∀ (i j : Fin 512), 500 ≤ i.val → CWp i j = 0)
    (hOW : ∀ (i : Fin 500) (o : Fin 10), OWp (lane i) o = OW i o)
    (hOW0 : ∀ (i : Fin 512) (o : Fin 10), 500 ≤ i.val → OWp i o = 0) (o : Fin 10) :
    pout φ x IWp gp biasp CWp OWp o = out φ x IW g bias CW OW o := by
  have h0 : ∀ j : Fin 500, pact0 x IWp gp biasp (lane j) = act0 x IW g bias j :=
    pact0_lane x IW g bias IWp gp biasp hIW hg hb
  have h1 := pstep_lane φ CW CWp hCW hCW0 _ _ h0
  have h2 := pstep_lane φ CW CWp hCW hCW0 _ _ h1
  have h3 := pstep_lane φ CW CWp hCW hCW0 _ _ h2
  unfold pout out pact3 act3
  rw [sum_lanes _ (fun i hi => by rw [hOW0 i o hi, mul_zero])]
  exact Finset.sum_congr rfl (fun i _ => by rw [h3 i, hOW i o])

end

end Cert.Net
-- ==== Proof.RefNet.lean ====
/-
  The reference program, read one batch row at a time, is the network `Cert.Net.out`.

  The program projects the input row through the transposed input weights, gates and shifts the result; three times it
  multiplies the activations by the transposed message-passing matrix and combines; last it multiplies by the read-out
  matrix. Every stage is read at an index through the generated reading lemmas. Beyond them the only facts used are
  that the index maps of the layout operations (transposes, broadcasts, the operand indices of a matrix product),
  evaluated at an index given by its coordinates, are again given by coordinates. A transposed matrix read at
  `(k, j)` is the matrix at `(j, k)`, so a product with the transposed matrix sums `A i * CW j i`: the network's
  round. The stages that prepare the gate, the message-passing matrix and the read-out matrix are not opened.
-/
import proofs.«168813_j15152644620827_2_alg».proof.Proof.Gen.ReferenceIdeal.Read
import proofs.«168813_j15152644620827_2_alg».proof.Proof.Net
import Idealize.ShloMosaic.Lib.ValueIdx

noncomputable section

open scoped BigOperators

namespace Cert.RefNet

open Cert.ReferenceIdeal Cert.ReferenceIdeal.Read Idealize.ShloMosaic Idealize.ShloMosaic.ValueIdx

/-! ## The index maps at an index given by its coordinates

Each layout operation and each matrix product reads its operands at an index computed from the result's index. At a
result index given by its coordinates these are again indices given by coordinates: the left operand of a product is
read in the result's row, the right one in the result's column, a transpose swaps the two coordinates, and a row
broadcast keeps the column. -/

theorem lidx55_ix (b : Fin 8192) (j : Fin 500) (k : Fin 3072) : lidx_main_v55 (ix2 b j) k = ix2 b k := by
  funext a; match a with | ⟨0, _⟩ => rfl | ⟨1, _⟩ => rfl
theorem ridx55_ix (b : Fin 8192) (j : Fin 500) (k : Fin 3072) : ridx_main_v55 (ix2 b j) k = ix2 k j := by
  funext a; match a with | ⟨0, _⟩ => rfl | ⟨1, _⟩ => rfl
theorem idx54_ix (k : Fin 3072) (j : Fin 500) : idx_main_v54 (ix2 k j) = ix2 j k := by
  funext a; match a with | ⟨0, _⟩ => rfl | ⟨1, _⟩ => rfl
theorem idx56_57_ix (b : Fin 8192) (j : Fin 500) : idx_main_v56 (idx_main_v57 (ix2 b j)) = ix1 j := by
  funext a; match a with | ⟨0, _⟩ => rfl
theorem idx59_60_ix (b : Fin 8192) (j : Fin 500) : idx_main_v59 (idx_main_v60 (ix2 b j)) = ix1 j := by
  funext a; match a with | ⟨0, _⟩ => rfl
theorem lidx63_ix (b : Fin 8192) (j k : Fin 500) : lidx_main_v63 (ix2 b j) k = ix2 b k := by
  funext a; match a with | ⟨0, _⟩ => rfl | ⟨1, _⟩ => rfl
theorem ridx63_ix (b : Fin 8192) (j k : Fin 500) : ridx_main_v63 (ix2 b j) k = ix2 k j := by
  funext a; match a with | ⟨0, _⟩ => rfl | ⟨1, _⟩ => rfl
theorem idx62_ix (k j : Fin 500) : idx_main_v62 (ix2 k j) = ix2 j k := by
  funext a; match a with | ⟨0, _⟩ => rfl | ⟨1, _⟩ => rfl
theorem lidx71_ix (b : Fin 8192) (j k : Fin 500) : lidx_main_v71 (ix2 b j) k = ix2 b k := by
  funext a; match a with | ⟨0, _⟩ => rfl | ⟨1, _⟩ => rfl
theorem ridx71_ix (b : Fin 8192) (j k : Fin 500) : ridx_main_v71 (ix2 b j) k = ix2 k j := by
  funext a; match a with | ⟨0, _⟩ => rfl | ⟨1, _⟩ => rfl
theorem idx70_ix (k j : Fin 500) : idx_main_v70 (ix2 k j) = ix2 j k := by
  funext a; match a with | ⟨0, _⟩ => rfl | ⟨1, _⟩ => rfl
theorem lidx79_ix (b : Fin 8192) (j k : Fin 500) : lidx_main_v79 (ix2 b j) k = ix2 b k := by
  funext a; match a with | ⟨0, _⟩ => rfl | ⟨1, _⟩ => rfl
theorem ridx79_ix (b : Fin 8192) (j k : Fin 500) : ridx_main_v79 (ix2 b j) k = ix2 k j := by
  funext a; match a with | ⟨0, _⟩ => rfl | ⟨1, _⟩ => rfl
theorem idx78_ix (k j : Fin 500) : idx_main_v78 (ix2 k j) = ix2 j k := by
  funext a; match a with | ⟨0, _⟩ => rfl | ⟨1, _⟩ => rfl
theorem lidx98_ix (b : Fin 8192) (o : Fin 10) (k : Fin 500) : lidx_main_v98 (ix2 b o) k = ix2 b k := by
  funext a; match a with | ⟨0, _⟩ => rfl | ⟨1, _⟩ => rfl
theorem ridx98_ix (b : Fin 8192) (o : Fin 10) (k : Fin 500) : ridx_main_v98 (ix2 b o) k = ix2 k o := by
  funext a; match a with | ⟨0, _⟩ => rfl | ⟨1, _⟩ => rfl

/-! ## The stages at a row -/

section Stages
variable (x0 : (⟨S8192x3072, .f32⟩ : BufTy).Contents (Elt Ideal)) (x1 : (⟨S500x3, .f32⟩ : BufTy).Contents (Elt Ideal)) (x2 : (⟨S500x3072, .f32⟩ : BufTy).Contents (Elt Ideal))
  (x3 : (⟨S500x64, .f32⟩ : BufTy).Contents (Elt Ideal)) (x4 : (⟨S500x10, .f32⟩ : BufTy).Contents (Elt Ideal)) (x5 : (⟨S500, .f32⟩ : BufTy).Contents (Elt Ideal))

/-- The gated, shifted input projection: the product with the transposed input weights sums `x k * IW j k`, and the
    two row broadcasts read the gate and the shift at the unit. -/
theorem act0_at (b : Fin 8192) (j : Fin 500) :
    val_main_v61 (F := Ideal) x0 x1 x2 x5 (ix2 b j)
    = Cert.Net.act0 (fun k => x0 (ix2 b k)) (fun j k => x2 (ix2 j k)) (fun j => val_main_v53 (F := Ideal) x1 (ix1 j))
        (fun j => x5 (ix1 j)) j := by
  have hdot : val_main_v55 (F := Ideal) x0 x2 (ix2 b j) = ∑ k : Fin 3072, x0 (ix2 b k) * x2 (ix2 j k) := by
    rw [val_main_v55_apply]
    refine Finset.sum_congr rfl fun k _ => ?_
    rw [lidx55_ix, ridx55_ix, val_main_v54_apply, idx54_ix]
  rw [val_main_v61_apply, val_main_v58_apply, hdot, val_main_v57_apply, val_main_v56_apply, idx56_57_ix,
    val_main_v60_apply, val_main_v59_apply, idx59_60_ix]
  rfl

/-- Round 1: the product with the transposed matrix sums `A i * CW j i`, and the scaling, addition and the two
    clamps that follow are the combining function. -/
theorem round1_at (b : Fin 8192) (j : Fin 500) :
    val_main_v69 (F := Ideal) x0 x1 x2 x3 x5 (ix2 b j)
    = Cert.Net.step Cert.Net.phi (fun j i => val_main_v42 (F := Ideal) x1 x3 (ix2 j i))
        (fun j' => val_main_v61 (F := Ideal) x0 x1 x2 x5 (ix2 b j')) j := by
  have hdot : val_main_v63 (F := Ideal) x0 x1 x2 x3 x5 (ix2 b j)
      = ∑ i : Fin 500, val_main_v61 (F := Ideal) x0 x1 x2 x5 (ix2 b i) * val_main_v42 (F := Ideal) x1 x3 (ix2 j i) := by
    rw [val_main_v63_apply]
    refine Finset.sum_congr rfl fun k _ => ?_
    rw [lidx63_ix, ridx63_ix, val_main_v62_apply, idx62_ix]
  rw [val_main_v69_apply, val_main_v67_apply, val_main_v66_apply, val_main_v65_apply, hdot, val_main_v64_apply,
    val_main_cst_19_apply, val_main_call5_v0_apply, val_main_call5_cst_apply, val_main_v68_apply, val_main_cst_20_apply]
  rfl

/-- Round 2: the product with the transposed matrix sums `A i * CW j i`, and the scaling, addition and the two
    clamps that follow are the combining function. -/
theorem round2_at (b : Fin 8192) (j : Fin 500) :
    val_main_v77 (F := Ideal) x0 x1 x2 x3 x5 (ix2 b j)
    = Cert.Net.step Cert.Net.phi (fun j i => val_main_v42 (F := Ideal) x1 x3 (ix2 j i))
        (fun j' => val_main_v69 (F := Ideal) x0 x1 x2 x3 x5 (ix2 b j')) j := by
  have hdot : val_main_v71 (F := Ideal) x0 x1 x2 x3 x5 (ix2 b j)
      = ∑ i : Fin 500, val_main_v69 (F := Ideal) x0 x1 x2 x3 x5 (ix2 b i) * val_main_v42 (F := Ideal) x1 x3 (ix2 j i) := by
    rw [val_main_v71_apply]
    refine Finset.sum_congr rfl fun k _ => ?_
    rw [lidx71_ix, ridx71_ix, val_main_v70_apply, idx70_ix]
  rw [val_main_v77_apply, val_main_v75_apply, val_main_v74_apply, val_main_v73_apply, hdot, val_main_v72_apply,
    val_main_cst_21_apply, val_main_call6_v0_apply, val_main_call6_cst_apply, val_main_v76_apply, val_main_cst_22_apply]
  rfl

/-- Round 3: the product with the transposed matrix sums `A i * CW j i`, and the scaling, addition and the two
    clamps that follow are the combining function. -/
theorem round3_at (b : Fin 8192) (j : Fin 500) :
    val_main_v85 (F := Ideal) x0 x1 x2 x3 x5 (ix2 b j)
    = Cert.Net.step Cert.Net.phi (fun j i => val_main_v42 (F := Ideal) x1 x3 (ix2 j i))
        (fun j' => val_main_v77 (F := Ideal) x0 x1 x2 x3 x5 (ix2 b j')) j := by
  have hdot : val_main_v79 (F := Ideal) x0 x1 x2 x3 x5 (ix2 b j)
      = ∑ i : Fin 500, val_main_v77 (F := Ideal) x0 x1 x2 x3 x5 (ix2 b i) * val_main_v42 (F := Ideal) x1 x3 (ix2 j i) := by
    rw [val_main_v79_apply]
    refine Finset.sum_congr rfl fun k _ => ?_
    rw [lidx79_ix, ridx79_ix, val_main_v78_apply, idx78_ix]
  rw [val_main_v85_apply, val_main_v83_apply, val_main_v82_apply, val_main_v81_apply, hdot, val_main_v80_apply,
    val_main_cst_23_apply, val_main_call7_v0_apply, val_main_call7_cst_apply, val_main_v84_apply, val_main_cst_24_apply]
  rfl

/-- The reference's output at row `b`, column `o`, is the network's output `o` on row `b` of the input. -/
theorem ref_at (b : Fin 8192) (o : Fin 10) :
    val_main_v98 (F := Ideal) x0 x1 x2 x3 x4 x5 (ix2 b o)
    = Cert.Net.out Cert.Net.phi (fun k => x0 (ix2 b k)) (fun j k => x2 (ix2 j k))
        (fun j => val_main_v53 (F := Ideal) x1 (ix1 j)) (fun j => x5 (ix1 j))
        (fun j i => val_main_v42 (F := Ideal) x1 x3 (ix2 j i))
        (fun i o' => val_main_v97 (F := Ideal) x1 x4 (ix2 i o')) o := by
  have e3 : (fun j => val_main_v85 (F := Ideal) x0 x1 x2 x3 x5 (ix2 b j))
      = Cert.Net.act3 Cert.Net.phi (fun k => x0 (ix2 b k)) (fun j k => x2 (ix2 j k))
          (fun j => val_main_v53 (F := Ideal) x1 (ix1 j)) (fun j => x5 (ix1 j))
          (fun j i => val_main_v42 (F := Ideal) x1 x3 (ix2 j i)) := by
    rw [funext fun j => round3_at x0 x1 x2 x3 x5 b j, funext fun j => round2_at x0 x1 x2 x3 x5 b j,
      funext fun j => round1_at x0 x1 x2 x3 x5 b j, funext fun j => act0_at x0 x1 x2 x5 b j]
    rfl
  rw [val_main_v98_apply]
  unfold Cert.Net.out
  refine Finset.sum_congr rfl fun k _ => ?_
  rw [lidx98_ix, ridx98_ix, ← e3]
end Stages

end Cert.RefNet

end
-- ==== Proof.KernelBody.lean ====
import proofs.«168813_j15152644620827_2_alg».proof.Proof.Gen.KernelIdeal.Frame
import proofs.«168813_j15152644620827_2_alg».proof.Proof.Net
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section
open Idealize.ShloMosaic Idealize.ShloMosaic.TcCoe Idealize.SL.Sem Idealize.ShloMosaic.ValueIdx
open Idealize.ShloMosaic.Pipeline (Dat)

namespace Cert.KernelIdeal.Body
open Cert.KernelIdeal Cert.KernelIdeal.Gen

section AnyF
variable {F : FTy → Type} [FloatOps F]

theorem hz : (![0, 0] : Fin 2 → Nat) = fun _ => 0 := funext fun a => by fin_cases a <;> rfl

/-- Columns `o … o+767` of a row block of the input. -/
abbrev xcols (x0 : Vec F S1024x3072 .f32) (o : Nat) (h : ∀ a, (![0, o] : Fin 2 → Nat) a + S1024x768.size a ≤ S1024x3072.size a) : Vec F S1024x768 .f32 :=
  View.ld x0 (Rect.unit (s := S1024x3072) ![0, o] S1024x768.size h)

/-- Rows `o … o+767` of the projection matrix. -/
abbrev wrows (x1 : Vec F S3072x512 .bf16) (o : Nat) (h : ∀ a, (![o, 0] : Fin 2 → Nat) a + S768x512.size a ≤ S3072x512.size a) : Vec F S768x512 .bf16 :=
  View.ld x1 (Rect.unit (s := S3072x512) ![o, 0] S768x512.size h)

theorem found (c : Dev nD) (i : grid0.Coords) (a1 : Memref sig .tc .vmem S1024x3072 .f32) (h1 : a1.IsWhole) (a2 : Memref sig .tc .vmem S3072x512 .bf16) (h2 : a2.IsWhole) (a3 : Memref sig .tc .vmem S512x512 .bf16) (h3 : a3.IsWhole) (a4 : Memref sig .tc .vmem S512x10 .bf16) (h4 : a4.IsWhole) (a5 : Memref sig .tc .vmem S1x512 .f32) (h5 : a5.IsWhole) (a6 : Memref sig .tc .vmem S1x512 .f32) (h6 : a6.IsWhole) (a7 : Memref sig .tc .vmem S1024x10 .f32) (h7 : a7.IsWhole)
    (x0 : Vec F S1024x3072 .f32) (x1 : Vec F S3072x512 .bf16) (x2 : Vec F S512x512 .bf16) (x3 : Vec F S512x10 .bf16) (x4 : Vec F S1x512 .f32) (x5 : Vec F S1x512 .f32) :
    out0_A_6 c i a1 h1 a2 h2 a3 h3 a4 h4 a5 h5 a6 h6 a7 h7 x0 x1 x2 x3 x4 x5
      = k0_pay1 (k0_pay5 (k0_pay2 (xcols x0 0 (by decide)) (wrows x1 0 (by decide)) (xcols x0 768 (by decide)) (wrows x1 768 (by decide))
            (xcols x0 1536 (by decide)) (wrows x1 1536 (by decide)))
          (k0_pay3 (xcols x0 2304 (by decide))) (k0_pay4 (wrows x1 2304 (by decide))) x4 x5 x2) x3 := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S1x512) hz, View.ld_unit_zero (S := S512x512) hz, View.ld_unit_zero (S := S512x10) hz]

end AnyF

section AtIdeal

theorem mm768_l0 (i : S1024x512.Idx) (q : dot_S1024x768_S768x512_S1024x512_1_0_0_1_n_n.contr.Idx) : (dot_S1024x768_S768x512_S1024x512_1_0_0_1_n_n.lhsIdx i q 0).val = (i 0).val := by
  unfold DotDims.lhsIdx
  rw [dif_neg (show ¬(0 : Fin S1024x768.rank) ∈ dot_S1024x768_S768x512_S1024x512_1_0_0_1_n_n.lhsBatch by decide), dif_pos (show (0 : Fin S1024x768.rank) ∈ dot_S1024x768_S768x512_S1024x512_1_0_0_1_n_n.lhsNonContracting by decide)]
  rfl
theorem mm768_r1 (i : S1024x512.Idx) (q : dot_S1024x768_S768x512_S1024x512_1_0_0_1_n_n.contr.Idx) : (dot_S1024x768_S768x512_S1024x512_1_0_0_1_n_n.rhsIdx i q 1).val = (i 1).val := by
  unfold DotDims.rhsIdx
  rw [dif_neg (show ¬(1 : Fin S768x512.rank) ∈ dot_S1024x768_S768x512_S1024x512_1_0_0_1_n_n.rhsBatch by decide), dif_pos (show (1 : Fin S768x512.rank) ∈ dot_S1024x768_S768x512_S1024x512_1_0_0_1_n_n.rhsNonContracting by decide)]
  rfl

/-- A matrix product into the zero accumulator, read at an entry: the plain sum over the contracted axis. -/
theorem mm768 (l : FVec Ideal S1024x768 .bf16) (r : FVec Ideal S768x512 .bf16) (p : Fin 1024) (q : Fin 512) :
    matmul dot_S1024x768_S768x512_S1024x512_1_0_0_1_n_n none l r (constant (F := Ideal) S1024x512 .f32 0x00000000#32) (ix2 p q)
      = ∑ k : Fin 768, l (ix2 p k) * r (ix2 k q) := by
  show FloatOps.matmul _ _ _ _ _ _ = _
  rw [Ideal.matmul_constant_zero_apply, ← Equiv.sum_comp (ValueIdx.contrEquiv1 dot_S1024x768_S768x512_S1024x512_1_0_0_1_n_n 768 rfl rfl).symm]
  refine Finset.sum_congr rfl fun k _ => ?_
  have hk := ValueIdx.contrEquiv1_symm_val dot_S1024x768_S768x512_S1024x512_1_0_0_1_n_n 768 rfl rfl k
  have el : dot_S1024x768_S768x512_S1024x512_1_0_0_1_n_n.lhsIdx (ix2 p q) ((ValueIdx.contrEquiv1 dot_S1024x768_S768x512_S1024x512_1_0_0_1_n_n 768 rfl rfl).symm k) = ix2 p k := funext fun a => Fin.ext (by
    match a with
    | ⟨0, _⟩ => exact mm768_l0 _ _
    | ⟨1, _⟩ => exact (dot_S1024x768_S768x512_S1024x512_1_0_0_1_n_n.lhsIdx_val_of_single rfl _ _).trans hk)
  have er : dot_S1024x768_S768x512_S1024x512_1_0_0_1_n_n.rhsIdx (ix2 p q) ((ValueIdx.contrEquiv1 dot_S1024x768_S768x512_S1024x512_1_0_0_1_n_n 768 rfl rfl).symm k) = ix2 k q := funext fun a => Fin.ext (by
    match a with
    | ⟨0, _⟩ => exact (dot_S1024x768_S768x512_S1024x512_1_0_0_1_n_n.rhsIdx_val_of_single rfl _ _).trans hk
    | ⟨1, _⟩ => exact mm768_r1 _ _)
  rw [el, er]

theorem mm512_l0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm512_r1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A matrix product into the zero accumulator, read at an entry: the plain sum over the contracted axis. -/
theorem mm512 (l : FVec Ideal S1024x512 .bf16) (r : FVec Ideal S512x512 .bf16) (p : Fin 1024) (q : Fin 512) :
    matmul dot_S1024x512_S512x512_S1024x512_1_0_0_1_n_n none l r (constant (F := Ideal) S1024x512 .f32 0x00000000#32) (ix2 p q)
      = ∑ k : Fin 512, l (ix2 p k) * r (ix2 k q) := by
  show FloatOps.matmul _ _ _ _ _ _ = _
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact mm512_l0 _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (dot_S1024x512_S512x512_S1024x512_1_0_0_1_n_n.rhsIdx_val_of_single rfl _ _).trans hk
    | ⟨1, _⟩ => exact mm512_r1 _ _)
  rw [el, er]

theorem mm10_l0 (i : S1024x10.Idx) (q : dot_S1024x512_S512x10_S1024x10_1_0_0_1_n_n.contr.Idx) : (dot_S1024x512_S512x10_S1024x10_1_0_0_1_n_n.lhsIdx i q 0).val = (i 0).val := by
  unfold DotDims.lhsIdx
  rw [dif_neg (show ¬(0 : Fin S1024x512.rank) ∈ dot_S1024x512_S512x10_S1024x10_1_0_0_1_n_n.lhsBatch by decide), dif_pos (show (0 : Fin S1024x512.rank) ∈ dot_S1024x512_S512x10_S1024x10_1_0_0_1_n_n.lhsNonContracting by decide)]
  rfl
theorem mm10_r1 (i : S1024x10.Idx) (q : dot_S1024x512_S512x10_S1024x10_1_0_0_1_n_n.contr.Idx) : (dot_S1024x512_S512x10_S1024x10_1_0_0_1_n_n.rhsIdx i q 1).val = (i 1).val := by
  unfold DotDims.rhsIdx
  rw [dif_neg (show ¬(1 : Fin S512x10.rank) ∈ dot_S1024x512_S512x10_S1024x10_1_0_0_1_n_n.rhsBatch by decide), dif_pos (show (1 : Fin S512x10.rank) ∈ dot_S1024x512_S512x10_S1024x10_1_0_0_1_n_n.rhsNonContracting by decide)]
  rfl

/-- A matrix product into the zero accumulator, read at an entry: the plain sum over the contracted axis. -/
theorem mm10 (l : FVec Ideal S1024x512 .bf16) (r : FVec Ideal S512x10 .bf16) (p : Fin 1024) (q : Fin 10) :
    matmul dot_S1024x512_S512x10_S1024x10_1_0_0_1_n_n none l r (constant (F := Ideal) S1024x10 .f32 0x00000000#32) (ix2 p q)
      = ∑ k : Fin 512, l (ix2 p k) * r (ix2 k q) := by
  show FloatOps.matmul _ _ _ _ _ _ = _
  rw [Ideal.matmul_constant_zero_apply, ← Equiv.sum_comp (ValueIdx.contrEquiv1 dot_S1024x512_S512x10_S1024x10_1_0_0_1_n_n 512 rfl rfl).symm]
  refine Finset.sum_congr rfl fun k _ => ?_
  have hk := ValueIdx.contrEquiv1_symm_val dot_S1024x512_S512x10_S1024x10_1_0_0_1_n_n 512 rfl rfl k
  have el : dot_S1024x512_S512x10_S1024x10_1_0_0_1_n_n.lhsIdx (ix2 p q) ((ValueIdx.contrEquiv1 dot_S1024x512_S512x10_S1024x10_1_0_0_1_n_n 512 rfl rfl).symm k) = ix2 p k := funext fun a => Fin.ext (by
    match a with
    | ⟨0, _⟩ => exact mm10_l0 _ _
    | ⟨1, _⟩ => exact (dot_S1024x512_S512x10_S1024x10_1_0_0_1_n_n.lhsIdx_val_of_single rfl _ _).trans hk)
  have er : dot_S1024x512_S512x10_S1024x10_1_0_0_1_n_n.rhsIdx (ix2 p q) ((ValueIdx.contrEquiv1 dot_S1024x512_S512x10_S1024x10_1_0_0_1_n_n 512 rfl rfl).symm k) = ix2 k q := funext fun a => Fin.ext (by
    match a with
    | ⟨0, _⟩ => exact (dot_S1024x512_S512x10_S1024x10_1_0_0_1_n_n.rhsIdx_val_of_single rfl _ _).trans hk
    | ⟨1, _⟩ => exact mm10_r1 _ _)
  rw [el, er]

/-- A row vector spread over the 1024 rows of a block, read at an entry: the vector's entry in that column. -/
theorem rowcast (v : FVec Ideal S1x512 .f32) (p : Fin 1024) (q : Fin 512) :
    broadcastTo S1024x512 v broadcasts_S1x512_S1024x512 (ix2 p q) = v (ix2 0 q) :=
  broadcastTo_apply v broadcasts_S1x512_S1024x512 (ix2 p q) (ix2 0 q) (fun a => by
    match a with
    | ⟨0, _⟩ => rfl
    | ⟨1, _⟩ => rfl)

/-- Columns `o … o+767` of the row block, read at an entry. -/
theorem xcols_at (x0 : Vec Ideal S1024x3072 .f32) (o : Nat) (h) (p : Fin 1024) (k : Fin 768) (k' : Fin 3072) (hk : k'.val = o + k.val) :
    xcols x0 o h (ix2 p k) = x0 (ix2 p k') :=
  congrArg x0 (funext fun a => Fin.ext (by
    match a with
    | ⟨0, _⟩ => show 0 + 1 * p.val = p.val; omega
    | ⟨1, _⟩ => show o + 1 * k.val = k'.val; omega))

/-- Rows `o … o+767` of the projection matrix, read at an entry. -/
theorem wrows_at (x1 : Vec Ideal S3072x512 .bf16) (o : Nat) (h) (k : Fin 768) (q : Fin 512) (k' : Fin 3072) (hk : k'.val = o + k.val) :
    wrows x1 o h (ix2 k q) = x1 (ix2 k' q) :=
  congrArg x1 (funext fun a => Fin.ext (by
    match a with
    | ⟨0, _⟩ => show o + 1 * k.val = k'.val; omega
    | ⟨1, _⟩ => show 0 + 1 * q.val = q.val; omega))

/-- The gated, shifted projection of a row block, from the three chunks already accumulated (`v30`) and the fourth chunk's
    two factors. -/
def kact (v30 : FVec Ideal S1024x512 .f32) (v35 : FVec Ideal S1024x768 .bf16) (v38 : FVec Ideal S768x512 .bf16)
    (v41 v45 : Vec Ideal S1x512 .f32) : FVec Ideal S1024x512 .f32 :=
  addf (mulf (addf v30 (matmul dot_S1024x768_S768x512_S1024x512_1_0_0_1_n_n none v35 v38 (constant (F := Ideal) S1024x512 .f32 0x00000000#32)))
      (broadcastTo S1024x512 (shapeCast S1x512 v41 shapeCasts_S1x512_S1x512) broadcasts_S1x512_S1024x512))
    (broadcastTo S1024x512 (shapeCast S1x512 v45 shapeCasts_S1x512_S1x512) broadcasts_S1x512_S1024x512)

/-- One round of message passing on a row block: `min (max (a + ½·(a·w)) 0) 50`. -/
def kround (a : FVec Ideal S1024x512 .f32) (w : FVec Ideal S512x512 .bf16) : FVec Ideal S1024x512 .f32 :=
  minimumf (maximumf (addf a (mulf (broadcast S1024x512 (Scalar.ofBits (F := Ideal) .f32 0x3F000000#32))
        (matmul dot_S1024x512_S512x512_S1024x512_1_0_0_1_n_n none (truncf .bf16 a bitsLt_bf16_f32) w (constant (F := Ideal) S1024x512 .f32 0x00000000#32))))
      (broadcast S1024x512 (Scalar.ofBits (F := Ideal) .f32 0x00000000#32)))
    (broadcast S1024x512 (Scalar.ofBits (F := Ideal) .f32 0x42480000#32))

/-- The body's middle payload is the projection followed by three rounds. -/
theorem pay5_eq (v30 : FVec Ideal S1024x512 .f32) (v35 : FVec Ideal S1024x768 .bf16) (v38 : FVec Ideal S768x512 .bf16)
    (v41 v45 : Vec Ideal S1x512 .f32) (v49 : Vec Ideal S512x512 .bf16) :
    k0_pay5 v30 v35 v38 v41 v45 v49 = kround (kround (kround (kact v30 v35 v38 v41 v45) v49) v49) v49 := by
  unfold k0_pay5 kround kact
  simp only [shapeCast_self]

/-- A round read at an entry is the network's round on that row. -/
theorem kround_at (a : FVec Ideal S1024x512 .f32) (w : FVec Ideal S512x512 .bf16) (p : Fin 1024) (j : Fin 512) :
    kround a w (ix2 p j) = Cert.Net.pstep Cert.Net.phi (fun i j' => w (ix2 i j')) (fun i => a (ix2 p i)) j := by
  unfold kround Cert.Net.pstep Cert.Net.phi
  rw [minimumf_apply, maximumf_apply, addf_apply, mulf_apply, mm512]
  rfl

/-- The three chunks accumulated from zero, read at an entry. -/
theorem pay2_at (v4 : Vec Ideal S1024x768 .f32) (v7 : Vec Ideal S768x512 .bf16) (v14 : Vec Ideal S1024x768 .f32) (v17 : Vec Ideal S768x512 .bf16)
    (v24 : Vec Ideal S1024x768 .f32) (v27 : Vec Ideal S768x512 .bf16) (p : Fin 1024) (j : Fin 512) :
    k0_pay2 v4 v7 v14 v17 v24 v27 (ix2 p j)
      = ((0 + ∑ k : Fin 768, v4 (ix2 p k) * v7 (ix2 k j)) + ∑ k : Fin 768, v14 (ix2 p k) * v17 (ix2 k j)) + ∑ k : Fin 768, v24 (ix2 p k) * v27 (ix2 k j) := by
  unfold k0_pay2
  simp only [shapeCast_self]
  rw [addf_apply, addf_apply, addf_apply, mm768, mm768, mm768]
  show ((Ideal.ofBits .f32 0x00000000#32 + _) + _) + _ = _
  rw [Ideal.ofBits_zero_f32]
  rfl

/-- The projection read at an entry. -/
theorem kact_at (v30 : FVec Ideal S1024x512 .f32) (v35 : FVec Ideal S1024x768 .bf16) (v38 : FVec Ideal S768x512 .bf16)
    (v41 v45 : Vec Ideal S1x512 .f32) (p : Fin 1024) (j : Fin 512) :
    kact v30 v35 v38 v41 v45 (ix2 p j) = (v30 (ix2 p j) + ∑ k : Fin 768, v35 (ix2 p k) * v38 (ix2 k j)) * v41 (ix2 0 j) + v45 (ix2 0 j) := by
  unfold kact
  simp only [shapeCast_self]
  rw [addf_apply, mulf_apply, addf_apply, mm768, rowcast, rowcast]

/-- The whole body's result at an entry of the row block: the padded network's output for that row. -/
theorem body_at (x0 : Vec Ideal S1024x3072 .f32) (x1 : Vec Ideal S3072x512 .bf16) (x2 : Vec Ideal S512x512 .bf16) (x3 : Vec Ideal S512x10 .bf16)
    (x4 x5 : Vec Ideal S1x512 .f32) (p : Fin 1024) (o : Fin 10) :
    k0_pay1 (k0_pay5 (k0_pay2 (xcols x0 0 (by decide)) (wrows x1 0 (by decide)) (xcols x0 768 (by decide)) (wrows x1 768 (by decide))
            (xcols x0 1536 (by decide)) (wrows x1 1536 (by decide)))
          (k0_pay3 (xcols x0 2304 (by decide))) (k0_pay4 (wrows x1 2304 (by decide))) x4 x5 x2) x3 (ix2 p o)
      = Cert.Net.pout Cert.Net.phi (fun k => x0 (ix2 p k)) (fun k j => x1 (ix2 k j)) (fun j => x4 (ix2 0 j)) (fun j => x5 (ix2 0 j))
          (fun i j => x2 (ix2 i j)) (fun i o' => x3 (ix2 i o')) o := by
  unfold k0_pay1 Cert.Net.pout Cert.Net.pact3
  simp only [shapeCast_self]
  rw [mm10, pay5_eq]
  refine Finset.sum_congr rfl fun i _ => ?_
  refine congrArg (· * x3 (ix2 i o)) ?_
  show kround _ x2 (ix2 p i) = _
  rw [kround_at]
  refine congrArg (fun A => Cert.Net.pstep Cert.Net.phi (fun i j' => x2 (ix2 i j')) A i) (funext fun i1 => ?_)
  rw [kround_at]
  refine congrArg (fun A => Cert.Net.pstep Cert.Net.phi (fun i j' => x2 (ix2 i j')) A i1) (funext fun i2 => ?_)
  rw [kround_at]
  refine congrArg (fun A => Cert.Net.pstep Cert.Net.phi (fun i j' => x2 (ix2 i j')) A i2) (funext fun j => ?_)
  rw [kact_at, pay2_at]
  unfold k0_pay3 k0_pay4 Cert.Net.pact0
  simp only [shapeCast_self]
  have e0 : ∀ (c : Fin 4) (oo : Nat) (hx) (hw), oo = 768 * c.val →
      ∑ k : Fin 768, xcols x0 oo hx (ix2 p k) * wrows x1 oo hw (ix2 k j)
        = ∑ k : Fin 768, x0 (ix2 p (Cert.Net.chunk c k)) * x1 (ix2 (Cert.Net.chunk c k) j) := fun c oo hx hw hoo =>
    Finset.sum_congr rfl fun k _ => by
      rw [xcols_at x0 oo hx p k (Cert.Net.chunk c k) (by subst hoo; rfl), wrows_at x1 oo hw k j (Cert.Net.chunk c k) (by subst hoo; rfl)]
  rw [e0 0 0 _ _ rfl, e0 1 768 _ _ rfl, e0 2 1536 _ _ rfl]
  have e3 : ∑ k : Fin 768, (truncf FTy.bf16 (xcols x0 2304 (by decide)) bitsLt_bf16_f32 : FVec Ideal S1024x768 .bf16) (ix2 p k) * wrows x1 2304 (by decide) (ix2 k j)
      = ∑ k : Fin 768, x0 (ix2 p (Cert.Net.chunk 3 k)) * x1 (ix2 (Cert.Net.chunk 3 k) j) := e0 3 2304 _ _ rfl
  rw [e3]

end AtIdeal

end Cert.KernelIdeal.Body
end
-- ==== Proof.KernelValue.lean ====
/-
  From the blocks the kernel writes back to the whole result array.

  The kernel's region runs over a grid of 8 points. At point `t` it stages rows `1024·t … 1024·t + 1023` of the input
  array and the whole of each of the five parameter arrays (the input projection, the message-passing matrix, the read-out
  matrix, the gate row and the shift row), runs its body on them, and writes the resulting block of 1024 × 10 values back
  to rows `1024·t … 1024·t + 1023` of the result array.  The body's result at entry `(p, o)` of the block is the padded
  network's output `o` for the staged row `p` (`Body.body_at`).

  So every point writes a block of ONE function of the arrays as the region finds them — `KG`: entry `(r, o)` is the
  padded network's output `o` for row `r` of the input array — and the eight blocks tile the 8192 rows: row `r` lies in
  the block of point `r / 1024`.  Hence the result array ends holding `KG` (`final`), and the run is re-posted with the
  result array at `KG` and the arguments unchanged (`run`).

  The arithmetic is only that of block coordinates: entry `y` of the block with block index `b` and block size `s` on an
  axis sits at coordinate `b · s + y` of the array on that axis.  The input's and the result's block index at point `t`
  is `(t, 0)`; every parameter array's is `(0, 0)`, so that its block is the array itself.
-/
import proofs.«168813_j15152644620827_2_alg».proof.Proof.Gen.KernelIdeal.Value
import proofs.«168813_j15152644620827_2_alg».proof.Proof.KernelBody
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the result array ends holding: entry `(r, o)` is the padded network's output `o` for row `r` of the input array,
    with the parameter arrays as the region finds them. -/
def KG (c : Dev nD) : S8192x10.Idx → EReal := fun i =>
  Cert.Net.pout Cert.Net.phi
    (fun k => (V m c main_arg0 : S8192x3072.Idx → EReal) (ix2 (i 0) k))
    (fun k j => (V m c main_v69 : S3072x512.Idx → EReal) (ix2 k j))
    (fun j => (V m c main_v75 : S1x512.Idx → EReal) (ix2 0 j))
    (fun j => (V m c main_v77 : S1x512.Idx → EReal) (ix2 0 j))
    (fun i' j => (V m c main_v71 : S512x512.Idx → EReal) (ix2 i' j))
    (fun i' o => (V m c main_v73 : S512x10.Idx → EReal) (ix2 i' o)) (i 1)

/-- The padded network's output depends on its arguments entry by entry. -/
theorem pout_congr {φ : EReal → EReal → EReal} {x x' : Fin 3072 → EReal} {IWp IWp' : Fin 3072 → Fin 512 → EReal}
    {gp gp' biasp biasp' : Fin 512 → EReal} {CWp CWp' : Fin 512 → Fin 512 → EReal} {OWp OWp' : Fin 512 → Fin 10 → EReal}
    {o o' : Fin 10}
    (hx : ∀ k, x k = x' k) (hIW : ∀ k j, IWp k j = IWp' k j) (hg : ∀ j, gp j = gp' j) (hb : ∀ j, biasp j = biasp' j)
    (hCW : ∀ i j, CWp i j = CWp' i j) (hOW : ∀ i q, OWp i q = OWp' i q) (ho : o = o') :
    Cert.Net.pout φ x IWp gp biasp CWp OWp o = Cert.Net.pout φ x' IWp' gp' biasp' CWp' OWp' o' := by
  obtain rfl : x = x' := funext hx
  obtain rfl : IWp = IWp' := funext fun k => funext (hIW k)
  obtain rfl : gp = gp' := funext hg
  obtain rfl : biasp = biasp' := funext hb
  obtain rfl : CWp = CWp' := funext fun i => funext (hCW i)
  obtain rfl : OWp = OWp' := funext fun i => funext (hOW i)
  subst ho
  rfl

/-! ## The block indices over the grid -/

/-- The printed index maps, decided over the 8 points: the input's and the result's block index is `(t, 0)`, every
    parameter array's is `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each staged block, read where it sits in its array -/

/-- Entry `(p, k)` of the input's block at point `t` is entry `(1024·t + p, k)` of the input array. -/
theorem input_block_at (c : Dev nD) (t : Fin cfg0.N) (p : Fin 1024) (k : Fin 3072) (r : Fin 8192)
    (hr : r.val = 1024 * t.val + p.val) :
    (iblk m c 0 t : Vec Ideal S1024x3072 .f32) (ix2 p k) = (V m c main_arg0 : S8192x3072.Idx → EReal) (ix2 r k) := by
  obtain ⟨e0, e1, -⟩ := block_indices t
  show V m c main_arg0 (((cfg0.win 0).blk t).view.emb (ix2 p k)) = V m c main_arg0 (ix2 r k)
  refine congrArg (V m c main_arg0 : S8192x3072.Idx → EReal) (funext fun a => Fin.ext ?_)
  match a with
  | ⟨0, _⟩ => show win0_0.index t (0 : Fin 2) * 1024 + 1 * p.val = r.val; omega
  | ⟨1, _⟩ => show win0_0.index t (1 : Fin 2) * 3072 + 1 * k.val = k.val; omega

/-- The projection matrix's block at any point is the whole matrix. -/
theorem proj_block_at (c : Dev nD) (t : Fin cfg0.N) (k : Fin 3072) (j : Fin 512) :
    (iblk m c 1 t : Vec Ideal S3072x512 .bf16) (ix2 k j) = (V m c main_v69 : S3072x512.Idx → EReal) (ix2 k j) := by
  obtain ⟨-, -, e0, e1, -⟩ := block_indices t
  show V m c main_v69 (((cfg0.win 1).blk t).view.emb (ix2 k j)) = V m c main_v69 (ix2 k j)
  refine congrArg (V m c main_v69 : S3072x512.Idx → EReal) (funext fun a => Fin.ext ?_)
  match a with
  | ⟨0, _⟩ => show win0_1.index t (0 : Fin 2) * 3072 + 1 * k.val = k.val; omega
  | ⟨1, _⟩ => show win0_1.index t (1 : Fin 2) * 512 + 1 * j.val = j.val; omega

/-- The message-passing matrix's block at any point is the whole matrix. -/
theorem conn_block_at (c : Dev nD) (t : Fin cfg0.N) (i j : Fin 512) :
    (iblk m c 2 t : Vec Ideal S512x512 .bf16) (ix2 i j) = (V m c main_v71 : S512x512.Idx → EReal) (ix2 i j) := by
  obtain ⟨-, -, -, -, e0, e1, -⟩ := block_indices t
  show V m c main_v71 (((cfg0.win 2).blk t).view.emb (ix2 i j)) = V m c main_v71 (ix2 i j)
  refine congrArg (V m c main_v71 : S512x512.Idx → EReal) (funext fun a => Fin.ext ?_)
  match a with
  | ⟨0, _⟩ => show win0_2.index t (0 : Fin 2) * 512 + 1 * i.val = i.val; omega
  | ⟨1, _⟩ => show win0_2.index t (1 : Fin 2) * 512 + 1 * j.val = j.val; omega

/-- The read-out matrix's block at any point is the whole matrix. -/
theorem readout_block_at (c : Dev nD) (t : Fin cfg0.N) (i : Fin 512) (q : Fin 10) :
    (iblk m c 3 t : Vec Ideal S512x10 .bf16) (ix2 i q) = (V m c main_v73 : S512x10.Idx → EReal) (ix2 i q) := by
  obtain ⟨-, -, -, -, -, -, e0, e1, -⟩ := block_indices t
  show V m c main_v73 (((cfg0.win 3).blk t).view.emb (ix2 i q)) = V m c main_v73 (ix2 i q)
  refine congrArg (V m c main_v73 : S512x10.Idx → EReal) (funext fun a => Fin.ext ?_)
  match a with
  | ⟨0, _⟩ => show win0_3.index t (0 : Fin 2) * 512 + 1 * i.val = i.val; omega
  | ⟨1, _⟩ => show win0_3.index t (1 : Fin 2) * 10 + 1 * q.val = q.val; omega

/-- The gate row's block at any point is the whole row. -/
theorem gate_block_at (c : Dev nD) (t : Fin cfg0.N) (z : Fin 1) (j : Fin 512) :
    (iblk m c 4 t : Vec Ideal S1x512 .f32) (ix2 z j) = (V m c main_v75 : S1x512.Idx → EReal) (ix2 z j) := by
  obtain ⟨-, -, -, -, -, -, -, -, e0, e1, -⟩ := block_indices t
  show V m c main_v75 (((cfg0.win 4).blk t).view.emb (ix2 z j)) = V m c main_v75 (ix2 z j)
  refine congrArg (V m c main_v75 : S1x512.Idx → EReal) (funext fun a => Fin.ext ?_)
  match a with
  | ⟨0, _⟩ => show win0_4.index t (0 : Fin 2) * 1 + 1 * z.val = z.val; omega
  | ⟨1, _⟩ => show win0_4.index t (1 : Fin 2) * 512 + 1 * j.val = j.val; omega

/-- The shift row's block at any point is the whole row. -/
theorem shift_block_at (c : Dev nD) (t : Fin cfg0.N) (z : Fin 1) (j : Fin 512) :
    (iblk m c 5 t : Vec Ideal S1x512 .f32) (ix2 z j) = (V m c main_v77 : S1x512.Idx → EReal) (ix2 z j) := by
  obtain ⟨-, -, -, -, -, -, -, -, -, -, e0, e1, -⟩ := block_indices t
  show V m c main_v77 (((cfg0.win 5).blk t).view.emb (ix2 z j)) = V m c main_v77 (ix2 z j)
  refine congrArg (V m c main_v77 : S1x512.Idx → EReal) (funext fun a => Fin.ext ?_)
  match a with
  | ⟨0, _⟩ => show win0_5.index t (0 : Fin 2) * 1 + 1 * z.val = z.val; omega
  | ⟨1, _⟩ => show win0_5.index t (1 : Fin 2) * 512 + 1 * j.val = j.val; omega

/-! ## What a point writes back -/

/-- What point `t` writes back is block `t` of `KG`. -/
theorem flushed_eq (c : Dev nD) (t : Fin cfg0.N) :
    (dats m 0 c).flushed 6 t = ((cfg0.win 6).blk t).view.read (Elt Ideal) (KG m c) := by
  rw [Value.flushed6_A m c t, Body.found]
  obtain ⟨-, -, -, -, -, -, -, -, -, -, -, -, e0, e1⟩ := block_indices t
  funext y
  obtain ⟨p, o, rfl⟩ : ∃ (p : Fin 1024) (o : Fin 10), y = ix2 p o := ⟨y 0, y 1, eq_ix2 y⟩
  refine (Body.body_at (iblk m c 0 t) (iblk m c 1 t) (iblk m c 2 t) (iblk m c 3 t) (iblk m c 4 t) (iblk m c 5 t) p o).trans ?_
  show _ = KG m c (((cfg0.win 6).blk t).view.emb (ix2 p o))
  refine pout_congr (fun k => ?_) (fun k j => ?_) (fun j => ?_) (fun j => ?_) (fun i j => ?_) (fun i q => ?_) (Fin.ext ?_)
  · refine input_block_at m c t p k _ ?_
    show win0_6.index t (0 : Fin 2) * 1024 + 1 * p.val = 1024 * t.val + p.val
    omega
  · exact proj_block_at m c t k j
  · exact gate_block_at m c t 0 j
  · exact shift_block_at m c t 0 j
  · exact conn_block_at m c t i j
  · exact readout_block_at m c t i q
  · show o.val = win0_6.index t (1 : Fin 2) * 10 + 1 * o.val
    omega

/-! ## The blocks tile the result array -/

/-- An index of the result array is in point `t`'s block iff each coordinate is in the block's range on its axis. -/
theorem mem_blk (t : Fin cfg0.N) (i : S8192x10.Idx) :
    i ∈ ((cfg0.win 6).blk t).view.set ↔ ∀ a : Fin 2, win0_6.index t a * S1024x10.size a ≤ (i a).val ∧ (i a).val < win0_6.index t a * S1024x10.size a + S1024x10.size a := by
  show i ∈ ((View.whole main_v78).slice (win0_6.rect t)).set ↔ _
  rw [View.set_slice_whole, Rect.mem_set_unit]
  exact Iff.rfl

/-- Every index of the result array is in some point's block: row `r` is in the block of point `r / 1024`. -/
theorem cover (i : S8192x10.Idx) :
    ∃ t : Fin cfg0.N, (cfg0.win 6).flush t = true ∧ i ∈ ((cfg0.win 6).blk t).view.set := by
  have hi0 : (i 0).val < 8192 := (i 0).isLt
  have hi1 : (i 1).val < 10 := (i 1).isLt
  obtain ⟨t, ht⟩ : ∃ t : Fin cfg0.N, t.val = (i 0).val / 1024 :=
    ⟨⟨(i 0).val / 1024, by rw [show cfg0.N = 8 from N_0]; omega⟩, rfl⟩
  obtain ⟨-, -, -, -, -, -, -, -, -, -, -, -, e0, e1⟩ := block_indices t
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 10 ≤ (i 1).val ∧ (i 1).val < win0_6.index t (1 : Fin 2) * 10 + 10; omega

/-! ## The result array, and the run -/

/-- The result array after the run is `KG` of the arrays as the region finds them. -/
theorem final (c : Dev nD) : (dats m 0 c).arrAt 6 cfg0.N = KG m c :=
  (dats m 0 c).arrAt_eq_of_cover 6 (KG m c) (fun t _ => flushed_eq m c t) cover

/-- The run, read: the result array at `KG`, the six arguments unchanged. -/
theorem run : θ_run defs (onTc (τ := τ) (main (F := Ideal))) ⟨m, fun _ => 0, ρ⟩ fun r => ∀ c : Dev nD,
      r.2.mem ((c : Thread nD τ).loc main_v78) = KG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Whole

end
-- ==== Proof.Windows.lean ====
/-
  What two of the arrays hold that the kernel's region reads: the message-passing matrix and the read-out matrix.

  Before its region the kernel's program computes, by the same operations as the reference program, the normalized
  connection matrix `CW` (500 × 500, a function of the positions and the features) and the scaled read-out matrix `OW`
  (500 × 10, a function of the positions and the output weights). It then transposes `CW`, narrows both to the
  16-bit format — at the ideal values a change of format is the identity — and extends them with zeros on the high side:
  `CW`ᵀ to 512 × 512, `OW` to 512 × 10. So

    • at lanes `(i, j)` below 500 the first array holds `CW j i`, and every row from 500 on is zero;
    • at lane `i` below 500 and output `o` the second array holds `OW i o`, and every row from 500 on is zero.

  The padding value is the integer `0` converted to a float, which at the ideal values is the real `0`.

  Each statement is proved in two steps: the array as the region finds it is ONE term — the pad of the narrowed
  (transposed) reference stage (`arr_conn`, `arr_ow`: every operation before the region read back in order) —, and that
  term is then read at an index (a pad inside or outside its operand, a narrowing, a transpose).
-/
import proofs.«168813_j15152644620827_2_alg».proof.Proof.Gen.KernelIdeal.Frame.Runs
import proofs.«168813_j15152644620827_2_alg».proof.Proof.Gen.ReferenceIdeal.Read
import proofs.«168813_j15152644620827_2_alg».proof.Proof.Net
import Idealize.ShloMosaic.Lib.ValueIdx
import Idealize.ShloMosaic.Lib.KernelVsHost
import Idealize.ShloMosaic.Lib.StableHlo.Run

noncomputable section

namespace Cert.Windows

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

variable (m : (ℓ : Loc nD τ sig) → Buf (Elt Ideal) ℓ) (c : Dev nD)

/-! ## The two arrays, each as one term -/

set_option maxRecDepth 8192 in
set_option maxHeartbeats 16000000 in
/-- The message-passing array as the region finds it: the reference's connection matrix (its stage 42, of the positions
    and the features), transposed, narrowed, and padded with the converted integer zero by 12 rows and 12 columns. -/
theorem arr_conn : (V m c main_v71 : S512x512.Idx → EReal)
    = pad S512x512 ![0, 0] ![12, 12] ![0, 0]
        (truncf .bf16 (transpose S500x500 [1, 0] (val_main_v42 (F := Ideal) (m ((c : Thread nD τ).loc main_arg1)) (m ((c : Thread nD τ).loc main_arg3)))
          Gen.transposes_S500x500_S500x500_1_0) Gen.bitsLt_bf16_f32)
        (sitofp (F := Ideal) .bf16 (constantI S_ 32 0#32)) Gen.pads_S500x500_S512x512_0120_0120 Gen.h_S_ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

set_option maxRecDepth 8192 in
set_option maxHeartbeats 16000000 in
/-- The read-out array as the region finds it: the reference's scaled read-out matrix (its stage 97, of the positions and
    the output weights), narrowed, and padded with the converted integer zero by 12 rows. -/
theorem arr_ow : (V m c main_v73 : S512x10.Idx → EReal)
    = pad S512x10 ![0, 0] ![12, 0] ![0, 0]
        (truncf .bf16 (val_main_v97 (F := Ideal) (m ((c : Thread nD τ).loc main_arg1)) (m ((c : Thread nD τ).loc main_arg4))) Gen.bitsLt_bf16_f32)
        (sitofp (F := Ideal) .bf16 (constantI S_ 32 0#32)) Gen.pads_S500x10_S512x10_0120_000 Gen.h_S_ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

/-! ## The padding value -/

/-- The integer zero converted to the 16-bit format is the real zero. -/
theorem padval16 (i : S_.Idx) : (sitofp (F := Ideal) .bf16 (constantI S_ 32 0#32)) i = 0 := by
  show (Scalar.sitofp .bf16 (0#32) : Ideal .bf16) = 0
  exact sitofp_zero

/-! ## The arrays read at an index -/

/-- Below lane 500 the message-passing array is the connection matrix transposed: entry `(i, j)` is `CW j i`. -/
theorem w_conn (i j : Fin 500) :
    (V m c main_v71 : S512x512.Idx → EReal) (ix2 (Cert.Net.lane i) (Cert.Net.lane j))
      = val_main_v42 (F := Ideal) (m ((c : Thread nD τ).loc main_arg1)) (m ((c : Thread nD τ).loc main_arg3)) (ix2 j i) := by
  rw [arr_conn]
  rw [pad_apply_of_inside _ _ _ _ _ Gen.pads_S500x500_S512x512_0120_0120 Gen.h_S_ _ (ix2 i j) (by
    intro a
    match a with
    | ⟨0, _⟩ => show i.val = 0 + i.val * (0 + 1); omega
    | ⟨1, _⟩ => show j.val = 0 + j.val * (0 + 1); omega)]
  rw [truncf_apply]
  exact transpose_apply [1, 0] _ Gen.transposes_S500x500_S500x500_1_0 (ix2 i j) (ix2 j i) (fun b => match b with
    | ⟨0, _⟩ => rfl
    | ⟨1, _⟩ => rfl)

/-- Every row of the message-passing array from 500 on is zero. -/
theorem w_conn0 (i j : Fin 512) (h : 500 ≤ i.val) : (V m c main_v71 : S512x512.Idx → EReal) (ix2 i j) = (0 : EReal) := by
  rw [arr_conn]
  rw [pad_apply_of_not_inside _ _ _ _ _ Gen.pads_S500x500_S512x512_0120_0120 Gen.h_S_ _ (0 : Fin 2) (by
    intro hin
    have e : (i.val - 0) / (0 + 1) < 500 := hin.2.2
    omega)]
  exact padval16 _

/-- Below lane 500 the read-out array is the scaled read-out matrix: entry `(i, o)` is `OW i o`. -/
theorem w_ow (i : Fin 500) (o : Fin 10) :
    (V m c main_v73 : S512x10.Idx → EReal) (ix2 (Cert.Net.lane i) o)
      = val_main_v97 (F := Ideal) (m ((c : Thread nD τ).loc main_arg1)) (m ((c : Thread nD τ).loc main_arg4)) (ix2 i o) := by
  rw [arr_ow]
  rw [pad_apply_of_inside _ _ _ _ _ Gen.pads_S500x10_S512x10_0120_000 Gen.h_S_ _ (ix2 i o) (by
    intro a
    match a with
    | ⟨0, _⟩ => show i.val = 0 + i.val * (0 + 1); omega
    | ⟨1, _⟩ => show o.val = 0 + o.val * (0 + 1); omega)]
  exact truncf_apply _ _ _

/-- Every row of the read-out array from 500 on is zero. -/
theorem w_ow0 (i : Fin 512) (o : Fin 10) (h : 500 ≤ i.val) : (V m c main_v73 : S512x10.Idx → EReal) (ix2 i o) = (0 : EReal) := by
  rw [arr_ow]
  rw [pad_apply_of_not_inside _ _ _ _ _ Gen.pads_S500x10_S512x10_0120_000 Gen.h_S_ _ (0 : Fin 2) (by
    intro hin
    have e : (i.val - 0) / (0 + 1) < 500 := hin.2.2
    omega)]
  exact padval16 _

end Cert.Windows

end
-- ==== Proof.WindowsB.lean ====
/-
  What three of the kernel's staged arrays hold, read at the lanes of the 500 units.

  Before its one launch the kernel program prepares, by plain array operations, the arrays its windows stage. Three of
  them are read here: the input weights (the second argument transposed, converted, and extended from 500 to 512
  columns), the gate (a vector of 500 entries computed from the first argument, laid out as one row and extended to 512
  columns) and the shift (the sixth argument, likewise). Each array is first written as ONE term over the launch
  contents: the composition of the operations that produce it. Then the term is read at an index: an extension read
  inside the operand is the operand there, a conversion keeps the value on the extended reals, a transpose swaps the two
  coordinates, and a vector laid out as one row is read at the column. The gate's vector is produced by the same
  operations as the corresponding stage of the reference program, so it is that stage.
-/
import proofs.«168813_j15152644620827_2_alg».proof.Proof.Gen.KernelIdeal.Frame.Runs
import proofs.«168813_j15152644620827_2_alg».proof.Proof.Gen.ReferenceIdeal.Read
import proofs.«168813_j15152644620827_2_alg».proof.Proof.Net
import Idealize.ShloMosaic.Lib.ValueIdx
import Idealize.ShloMosaic.Lib.ValueLayout
import Idealize.ShloMosaic.Lib.KernelVsHost
import Idealize.ShloMosaic.Lib.StableHlo.Run

noncomputable section

namespace Cert.WindowsB

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The arrays as terms over the launch contents -/

set_option maxRecDepth 8192 in
set_option maxHeartbeats 4000000 in
/-- The staged input weights: the second argument transposed, converted, and extended by 12 columns. -/
theorem iw_term : (V m c main_v69 : S3072x512.Idx → EReal)
    = pad S3072x512 ![0, 0] ![0, 12] ![0, 0]
        (truncf .bf16 (transpose S3072x500 [1, 0] (m ((c : Thread nD τ).loc main_arg2) : S500x3072.Idx → EReal)
          Gen.transposes_S500x3072_S3072x500_1_0) Gen.bitsLt_bf16_f32)
        (sitofp (F := Ideal) .bf16 (constantI S_ 32 0#32)) Gen.pads_S3072x500_S3072x512_000_0120 Gen.h_S_ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

set_option maxRecDepth 8192 in
set_option maxHeartbeats 4000000 in
/-- The staged gate: the reference's gate vector laid out as one row and extended by 12 columns. The operations that
    produce the vector are the reference stage's own, so the two terms are the same term. -/
theorem gate_term : (V m c main_v75 : S1x512.Idx → EReal)
    = pad S1x512 ![0, 0] ![0, 12] ![0, 0]
        (shapeCast S1x500 (Cert.ReferenceIdeal.Read.val_main_v53 (F := Ideal) (m ((c : Thread nD τ).loc main_arg1)) : S500.Idx → EReal)
          Gen.shapeCasts_S500_S1x500)
        (sitofp (F := Ideal) .f32 (constantI S_ 32 0#32)) Gen.pads_S1x500_S1x512_000_0120 Gen.h_S_ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

set_option maxRecDepth 8192 in
set_option maxHeartbeats 4000000 in
/-- The staged shift: the sixth argument laid out as one row and extended by 12 columns. -/
theorem bias_term : (V m c main_v77 : S1x512.Idx → EReal)
    = pad S1x512 ![0, 0] ![0, 12] ![0, 0]
        (shapeCast S1x500 (m ((c : Thread nD τ).loc main_arg5) : S500.Idx → EReal) Gen.shapeCasts_S500_S1x500)
        (sitofp (F := Ideal) .f32 (constantI S_ 32 0#32)) Gen.pads_S1x500_S1x512_000_0120 Gen.h_S_ := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

/-! ## The arrays at the lanes of the units -/

/-- Row `k`, lane `j` of the staged input weights is entry `(j, k)` of the second argument. -/
theorem w_iw (k : Fin 3072) (j : Fin 500) :
    (V m c main_v69 : S3072x512.Idx → EReal) (ix2 k (Cert.Net.lane j))
    = (m ((c : Thread nD τ).loc main_arg2) : S500x3072.Idx → EReal) (ix2 j k) := by
  rw [iw_term]
  rw [pad_apply_of_inside _ _ _ _ _ Gen.pads_S3072x500_S3072x512_000_0120 Gen.h_S_ _ (ix2 k j) (by
    intro a
    match a with
    | ⟨0, _⟩ => show k.val = 0 + k.val * (0 + 1); omega
    | ⟨1, _⟩ => show j.val = 0 + j.val * (0 + 1); omega)]
  show transpose S3072x500 [1, 0] (m ((c : Thread nD τ).loc main_arg2) : S500x3072.Idx → EReal)
    Gen.transposes_S500x3072_S3072x500_1_0 (ix2 k j) = _
  exact transpose_apply [1, 0] _ Gen.transposes_S500x3072_S3072x500_1_0 (ix2 k j) (ix2 j k) (fun b => match b with
    | ⟨0, _⟩ => rfl
    | ⟨1, _⟩ => rfl)

/-- Lane `j` of the staged gate is the reference's gate at unit `j`. -/
theorem w_gate (j : Fin 500) :
    (V m c main_v75 : S1x512.Idx → EReal) (ix2 0 (Cert.Net.lane j))
    = Cert.ReferenceIdeal.Read.val_main_v53 (F := Ideal) (m ((c : Thread nD τ).loc main_arg1)) (ix1 j) := by
  rw [gate_term]
  rw [pad_apply_of_inside _ _ _ _ _ Gen.pads_S1x500_S1x512_000_0120 Gen.h_S_ _ (ix2 (0 : Fin 1) j) (by
    intro a
    match a with
    | ⟨0, _⟩ => rfl
    | ⟨1, _⟩ => show j.val = 0 + j.val * (0 + 1); omega)]
  exact shapeCast_a_1a_apply _ _ 0 j

/-- Lane `j` of the staged shift is the sixth argument at unit `j`. -/
theorem w_bias (j : Fin 500) :
    (V m c main_v77 : S1x512.Idx → EReal) (ix2 0 (Cert.Net.lane j))
    = (m ((c : Thread nD τ).loc main_arg5) : S500.Idx → EReal) (ix1 j) := by
  rw [bias_term]
  rw [pad_apply_of_inside _ _ _ _ _ Gen.pads_S1x500_S1x512_000_0120 Gen.h_S_ _ (ix2 (0 : Fin 1) j) (by
    intro a
    match a with
    | ⟨0, _⟩ => rfl
    | ⟨1, _⟩ => show j.val = 0 + j.val * (0 + 1); omega)]
  exact shapeCast_a_1a_apply _ _ 0 j

end Cert.WindowsB

end
-- ==== Proof.lean ====
/-
  The certificate's five claims.

  Both programs compute, for every batch row, the same small network (Proof/Net.lean): a projection of the row's 3072
  inputs onto 500 units, gated and shifted, three rounds of message passing through one 500 × 500 matrix, and a read-out
  onto 10 outputs.  The three parameter arrays of the network that depend on the positions and features — the
  message-passing matrix, the input gate and the scaled read-out matrix — are computed on the host by the same
  operations in both programs.  The kernel then lays every unit-indexed array out on 512 lanes (zero beyond lane 500),
  handles 1024 batch rows per grid point, and accumulates the projection in four chunks of 768 inputs; the reference
  works on the 500 units directly.  Over the extended reals a zero weight annihilates whatever activation it meets and
  sums may be regrouped freely, so the two layouts give the same ten outputs for every row (Proof/NetAlgebra.lean);
  no finiteness of the inputs is used.

  The kernel's result array is read off its run block by block (Proof/KernelBody.lean: what one grid point leaves;
  Proof/KernelValue.lean: the blocks tile the array), the arrays its windows stage are read off the host operations
  before the call (Proof/Windows.lean, Proof/WindowsB.lean), and the reference's result is its run read one operation at
  a time (Proof/RefNet.lean).  The three frames are the programs' runs with the results forgotten; the idealization
  rewrote nothing, so `preserves` is trivial.
-/
import proofs.«168813_j15152644620827_2_alg».proof.Defs
import proofs.«168813_j15152644620827_2_alg».proof.Proof.Gen.Kernel
import proofs.«168813_j15152644620827_2_alg».proof.Proof.Gen.Kernel.Skeleton
import proofs.«168813_j15152644620827_2_alg».proof.Proof.Gen.Kernel.Launch
import proofs.«168813_j15152644620827_2_alg».proof.Proof.Gen.Kernel.Points
import proofs.«168813_j15152644620827_2_alg».proof.Proof.Gen.Kernel.Frame
import proofs.«168813_j15152644620827_2_alg».proof.Proof.Gen.KernelIdeal
import proofs.«168813_j15152644620827_2_alg».proof.Proof.Gen.KernelIdeal.Skeleton
import proofs.«168813_j15152644620827_2_alg».proof.Proof.Gen.KernelIdeal.Launch
import proofs.«168813_j15152644620827_2_alg».proof.Proof.Gen.KernelIdeal.Points
import proofs.«168813_j15152644620827_2_alg».proof.Proof.Gen.KernelIdeal.Frame
import proofs.«168813_j15152644620827_2_alg».proof.Proof.Gen.ReferenceIdeal
import proofs.«168813_j15152644620827_2_alg».proof.Proof.Gen.Pre_finite_inputs
import proofs.«168813_j15152644620827_2_alg».proof.Proof.Gen.KernelIdeal.Value
import proofs.«168813_j15152644620827_2_alg».proof.Proof.Gen.ReferenceIdeal.Run
import proofs.«168813_j15152644620827_2_alg».proof.Proof.Gen.ReferenceIdeal.Read
import proofs.«168813_j15152644620827_2_alg».proof.Proof.Net
import proofs.«168813_j15152644620827_2_alg».proof.Proof.NetAlgebra
import proofs.«168813_j15152644620827_2_alg».proof.Proof.RefNet
import proofs.«168813_j15152644620827_2_alg».proof.Proof.KernelBody
import proofs.«168813_j15152644620827_2_alg».proof.Proof.KernelValue
import proofs.«168813_j15152644620827_2_alg».proof.Proof.Windows
import proofs.«168813_j15152644620827_2_alg».proof.Proof.WindowsB
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Row by row, the kernel's result (the network on 512 lanes, from the arrays its windows stage) is the reference's
    (the network on 500 units): the staged arrays agree with the reference's stages on the first 500 lanes, and the
    extension rows of the two matrices are zero. -/
theorem algebraic : Cert.algebraic_KernelIdeal_ReferenceIdeal := by
  intro m ρ m' ρ' _ hagree
  refine ⟨fun c => Cert.KernelIdeal.Whole.KG m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2.1, (hagree c).2.2.2.2.2]
  funext i
  obtain ⟨b, o, rfl⟩ : ∃ (b : Fin 8192) (o : Fin 10), i = ix2 b o := ⟨i 0, i 1, eq_ix2 i⟩
  refine (Cert.RefNet.ref_at _ _ _ _ _ _ b o).trans ?_
  unfold Cert.KernelIdeal.Whole.KG
  show Cert.Net.out _ _ _ _ _ _ _ o = Cert.Net.pout _ _ _ _ _ _ _ o
  rw [Cert.KernelIdeal.Gen.V_main_arg0 m c]
  exact (Cert.Net.pout_eq_out Cert.Net.phi _ _ _ _ _ _ _ _ _ _ _
    (fun k j => Cert.WindowsB.w_iw m c k j) (fun j => Cert.WindowsB.w_gate m c j) (fun j => Cert.WindowsB.w_bias m c j)
    (fun i j => Cert.Windows.w_conn m c i j) (fun i j h => Cert.Windows.w_conn0 m c i j h)
    (fun i o' => Cert.Windows.w_ow m c i o') (fun i o' h => Cert.Windows.w_ow0 m c i o' h) o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
